-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v183)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v183) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S64x128 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S320000x128 .f32) (main_arg1 : IVec S320000 32) (main_arg2 : IVec S320000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S10000 : Shape := ⟨1, ![10000]⟩
abbrev S320000x1 : Shape := ⟨2, ![320000, 1]⟩
abbrev S128x64 : Shape := ⟨2, ![128, 64]⟩
abbrev S10000x128 : Shape := ⟨2, ![10000, 128]⟩
abbrev S10000x1 : Shape := ⟨2, ![10000, 1]⟩
abbrev S1x128 : Shape := ⟨2, ![1, 128]⟩
abbrev S8000x128 : Shape := ⟨2, ![8000, 128]⟩
abbrev S1x64 : Shape := ⟨2, ![1, 64]⟩
abbrev S320000x64 : Shape := ⟨2, ![320000, 64]⟩
abbrev S8000x64 : Shape := ⟨2, ![8000, 64]⟩

abbrev nBuf : Space → Nat
  | .hbm => 244
  | .vmem => 30
  | .smem => 0
  | _ => 0

abbrev hbmTy0_0 (i : Nat) : BufTy := match i % 128 with
  | 0 => ⟨S320000x128, .f32⟩
  | 1 => ⟨S320000, .i32⟩
  | 2 => ⟨S320000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S64x128, .f32⟩
  | 12 => ⟨S64, .f32⟩
  | 13 => ⟨S_, .f32⟩
  | 14 => ⟨S320000, .f32⟩
  | 15 => ⟨S_, .f32⟩
  | 16 => ⟨S10000, .f32⟩
  | 17 => ⟨S320000x1, .i32⟩
  | 18 => ⟨S10000, .f32⟩
  | 19 => ⟨S128x128, .f32⟩
  | 20 => ⟨S128x128, .f32⟩
  | 21 => ⟨S128x128, .f32⟩
  | 22 => ⟨S128x128, .f32⟩
  | 23 => ⟨S128x64, .f32⟩
  | 24 => ⟨S_, .f32⟩
  | 25 => ⟨S10000x128, .f32⟩
  | 26 => ⟨S320000x1, .i32⟩
  | 27 => ⟨S10000x128, .f32⟩
  | 28 => ⟨S10000x1, .f32⟩
  | 29 => ⟨S10000x128, .f32⟩
  | 30 => ⟨S10000x128, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x128, .f32⟩
  | 40 => ⟨S_, .f32⟩
  | 41 => ⟨S10000x128, .f32⟩
  | 42 => ⟨S320000x1, .i32⟩
  | 43 => ⟨S10000x128, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x128, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x128, .f32⟩
  | 62 => ⟨S320000x128, .f32⟩
  | 63 => ⟨S_, .f32⟩
  | 64 => ⟨S320000x128, .f32⟩
  | 65 => ⟨S320000x128, .f32⟩
  | 66 => ⟨S1x128, .f32⟩
  | 67 => ⟨S320000x128, .f32⟩
  | 68 => ⟨S_, .f32⟩
  | 69 => ⟨S10000x128, .f32⟩
  | 70 => ⟨S320000x1, .i32⟩
  | 71 => ⟨S10000x128, .f32⟩
  | 72 => ⟨S10000x1, .f32⟩
  | 73 => ⟨S10000x128, .f32⟩
  | 74 => ⟨S10000x128, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x128, .f32⟩
  | 84 => ⟨S_, .f32⟩
  | 85 => ⟨S10000x128, .f32⟩
  | 86 => ⟨S320000x1, .i32⟩
  | 87 => ⟨S10000x128, .f32⟩
  | 88 => ⟨S_, .i32⟩
  | 89 => ⟨S320000, .i32⟩
  | 90 => ⟨S320000, .i1⟩
  | 91 => ⟨S_, .i32⟩
  | 92 => ⟨S320000, .i32⟩
  | 93 => ⟨S320000, .i32⟩
  | 94 => ⟨S320000, .i32⟩
  | 95 => ⟨S320000x1, .i32⟩
  | 96 => ⟨S320000x128, .f32⟩
  | 97 => ⟨S_, .i32⟩
  | 98 => ⟨S320000, .i32⟩
  | 99 => ⟨S320000, .i1⟩
  | 100 => ⟨S_, .i32⟩
  | 101 => ⟨S320000, .i32⟩
  | 102 => ⟨S320000, .i32⟩
  | 103 => ⟨S320000, .i32⟩
  | 104 => ⟨S320000x1, .i32⟩
  | 105 => ⟨S320000x128, .f32⟩
  | 106 => ⟨S320000x128, .f32⟩
  | 107 => ⟨S_, .f32⟩
  | 108 => ⟨S320000x128, .f32⟩
  | 109 => ⟨S320000x128, .f32⟩
  | 110 => ⟨S1x128, .f32⟩
  | 111 => ⟨S320000x128, .f32⟩
  | 112 => ⟨S_, .f32⟩
  | 113 => ⟨S10000x128, .f32⟩
  | 114 => ⟨S320000x1, .i32⟩
  | 115 => ⟨S10000x128, .f32⟩
  | 116 => ⟨S10000x1, .f32⟩
  | 117 => ⟨S10000x128, .f32⟩
  | 118 => ⟨S10000x128, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x128, .f32⟩
  | _ => ⟨S320000x128, .f32⟩

abbrev hbmTy0_1 (i : Nat) : BufTy := match i % 128 with
  | 0 => ⟨S_, .f32⟩
  | 1 => ⟨S10000x128, .f32⟩
  | 2 => ⟨S320000x1, .i32⟩
  | 3 => ⟨S10000x128, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000x128, .f32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x128, .f32⟩
  | 22 => ⟨S320000x128, .f32⟩
  | 23 => ⟨S_, .f32⟩
  | 24 => ⟨S320000x128, .f32⟩
  | 25 => ⟨S320000x128, .f32⟩
  | 26 => ⟨S1x128, .f32⟩
  | 27 => ⟨S320000x128, .f32⟩
  | 28 => ⟨S_, .f32⟩
  | 29 => ⟨S10000x128, .f32⟩
  | 30 => ⟨S320000x1, .i32⟩
  | 31 => ⟨S10000x128, .f32⟩
  | 32 => ⟨S10000x1, .f32⟩
  | 33 => ⟨S10000x128, .f32⟩
  | 34 => ⟨S10000x128, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x128, .f32⟩
  | 44 => ⟨S_, .f32⟩
  | 45 => ⟨S10000x128, .f32⟩
  | 46 => ⟨S320000x1, .i32⟩
  | 47 => ⟨S10000x128, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x128, .f32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x128, .f32⟩
  | 66 => ⟨S320000x128, .f32⟩
  | 67 => ⟨S_, .f32⟩
  | 68 => ⟨S320000x128, .f32⟩
  | 69 => ⟨S320000x128, .f32⟩
  | 70 => ⟨S1x128, .f32⟩
  | 71 => ⟨S320000x128, .f32⟩
  | 72 => ⟨S_, .f32⟩
  | 73 => ⟨S10000x128, .f32⟩
  | 74 => ⟨S320000x1, .i32⟩
  | 75 => ⟨S10000x128, .f32⟩
  | 76 => ⟨S10000x1, .f32⟩
  | 77 => ⟨S10000x128, .f32⟩
  | 78 => ⟨S10000x128, .f32⟩
  | 79 => ⟨S_, .i32⟩
  | 80 => ⟨S320000, .i32⟩
  | 81 => ⟨S320000, .i1⟩
  | 82 => ⟨S_, .i32⟩
  | 83 => ⟨S320000, .i32⟩
  | 84 => ⟨S320000, .i32⟩
  | 85 => ⟨S320000, .i32⟩
  | 86 => ⟨S320000x1, .i32⟩
  | 87 => ⟨S320000x128, .f32⟩
  | 88 => ⟨S_, .f32⟩
  | 89 => ⟨S10000x128, .f32⟩
  | 90 => ⟨S320000x1, .i32⟩
  | 91 => ⟨S10000x128, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x128, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000x128, .f32⟩
  | 110 => ⟨S320000x128, .f32⟩
  | 111 => ⟨S_, .f32⟩
  | 112 => ⟨S320000x128, .f32⟩
  | 113 => ⟨S320000x128, .f32⟩
  | 114 => ⟨S1x64, .f32⟩
  | 115 => ⟨S320000x64, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S128x128, .f32⟩
  | .local _ .vmem, ⟨15, _⟩ => ⟨S1x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S128x128, .f32⟩
  | .local _ .vmem, ⟨21, _⟩ => ⟨S1x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S8000x128, .f32⟩
  | .local _ .vmem, ⟨26, _⟩ => ⟨S128x64, .f32⟩
  | .local _ .vmem, ⟨27, _⟩ => ⟨S1x64, .f32⟩
  | .local _ .vmem, ⟨28, _⟩ => ⟨S8000x64, .f32⟩
  | .local _ .vmem, ⟨29, _⟩ => ⟨S8000x64, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_19 : Ref sig .tc := ⟨.hbm, 119, rfl⟩
abbrev main_v85 : Ref sig .tc := ⟨.hbm, 120, rfl⟩
abbrev main_v86 : Ref sig .tc := ⟨.hbm, 121, rfl⟩
abbrev main_c_20 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_22 : Ref sig .tc := ⟨.hbm, 132, rfl⟩
abbrev main_v95 : Ref sig .tc := ⟨.hbm, 133, rfl⟩
abbrev main_v96 : Ref sig .tc := ⟨.hbm, 134, rfl⟩
abbrev main_c_23 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_24 : Ref sig .tc := ⟨.hbm, 141, rfl⟩
abbrev main_v102 : Ref sig .tc := ⟨.hbm, 142, rfl⟩
abbrev main_v103 : Ref sig .tc := ⟨.hbm, 143, rfl⟩
abbrev main_c_25 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_26 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_27 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_28 : Ref sig .tc := ⟨.hbm, 163, rfl⟩
abbrev main_v120 : Ref sig .tc := ⟨.hbm, 164, rfl⟩
abbrev main_v121 : Ref sig .tc := ⟨.hbm, 165, rfl⟩
abbrev main_c_29 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_30 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_31 : Ref sig .tc := ⟨.hbm, 176, rfl⟩
abbrev main_v130 : Ref sig .tc := ⟨.hbm, 177, rfl⟩
abbrev main_v131 : Ref sig .tc := ⟨.hbm, 178, rfl⟩
abbrev main_c_32 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_c_33 : Ref sig .tc := ⟨.hbm, 185, rfl⟩
abbrev main_v137 : Ref sig .tc := ⟨.hbm, 186, rfl⟩
abbrev main_v138 : Ref sig .tc := ⟨.hbm, 187, rfl⟩
abbrev main_c_34 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_35 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_36 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_c_37 : Ref sig .tc := ⟨.hbm, 207, rfl⟩
abbrev main_v155 : Ref sig .tc := ⟨.hbm, 208, rfl⟩
abbrev main_v156 : Ref sig .tc := ⟨.hbm, 209, rfl⟩
abbrev main_c_38 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_39 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_c_40 : Ref sig .tc := ⟨.hbm, 220, rfl⟩
abbrev main_v165 : Ref sig .tc := ⟨.hbm, 221, rfl⟩
abbrev main_v166 : Ref sig .tc := ⟨.hbm, 222, rfl⟩
abbrev main_c_41 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_c_42 : Ref sig .tc := ⟨.hbm, 229, rfl⟩
abbrev main_v172 : Ref sig .tc := ⟨.hbm, 230, rfl⟩
abbrev main_v173 : Ref sig .tc := ⟨.hbm, 231, rfl⟩
abbrev main_c_43 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst_44 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  transposes_S128x128_S128x128_1_0 : S128x128.Transposes [1, 0] S128x128
  transposes_S64x128_S128x64_1_0 : S64x128.Transposes [1, 0] S128x64
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S320000x128 : S_.BroadcastsInDim S320000x128 (![] : Fin 0 → Fin S320000x128.rank)
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  scatter_S10000_S320000x1_S320000_n_0_0_1_wf : ScatterDims.WF S10000 S320000x1 S320000 [] [0] [0] 1
  scatter_S10000x128_S320000x1_S320000x128_1_0_0_1_wf : ScatterDims.WF S10000x128 S320000x1 S320000x128 [1] [0] [0] 1
  gather_S10000x128_S320000x1_S320000x128_1_0_n_n_0_1_1128_wf : GatherDims.WF S10000x128 S320000x1 S320000x128 [1] [0] [] [0] [] 1 ![1, 128]
  dot_S8000x128_S128x128_S8000x128_1_0_0_1_n_n_wf : DotDims.WF S8000x128 S128x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S320000x128.size a
  hwx0_0 : ∀ i : grid0.Coords, EltTy.bits .f32 = 32 ∨ (Rect.block (s := S320000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S320000x128.size a
  hwx0_3 : ∀ i : grid0.Coords, EltTy.bits .f32 = 32 ∨ (Rect.block (s := S320000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S320000x128.size a
  hwx1_0 : ∀ i : grid1.Coords, EltTy.bits .f32 = 32 ∨ (Rect.block (s := S320000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S320000x128.size a
  hwx1_3 : ∀ i : grid1.Coords, EltTy.bits .f32 = 32 ∨ (Rect.block (s := S320000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S320000x128.size a
  hwx2_0 : ∀ i : grid2.Coords, EltTy.bits .f32 = 32 ∨ (Rect.block (s := S320000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S320000x128.size a
  hwx2_3 : ∀ i : grid2.Coords, EltTy.bits .f32 = 32 ∨ (Rect.block (s := S320000x128) S8000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S320000x128.size a
  hwx3_0 : ∀ i : grid3.Coords, EltTy.bits .f32 = 32 ∨ (Rect.block (s := S320000x128) S8000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x128.size a ≤ S320000x128.size a
  hwx3_3 : ∀ i : grid3.Coords, EltTy.bits .f32 = 32 ∨ (Rect.block (s := S320000x128) S8000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S320000x128.size a
  hwx4_0 : ∀ i : grid4.Coords, EltTy.bits .f32 = 32 ∨ (Rect.block (s := S320000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x64.size a ≤ S320000x64.size a
  hwx4_3 : ∀ i : grid4.Coords, EltTy.bits .f32 = 32 ∨ (Rect.block (s := S320000x64) S8000x64.size (cc4_transform_3 i) (hinb4_3 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_v41) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v76) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v77) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v78) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v111) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v112) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v113) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v146) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v147) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v148) S8000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v181) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v182) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v183) S8000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S10000 : Shape := ⟨1, ![10000]⟩
abbrev S320000x1 : Shape := ⟨2, ![320000, 1]⟩
abbrev S10000x128 : Shape := ⟨2, ![10000, 128]⟩
abbrev S10000x1 : Shape := ⟨2, ![10000, 1]⟩
abbrev S1x128 : Shape := ⟨2, ![1, 128]⟩
abbrev S128x64 : Shape := ⟨2, ![128, 64]⟩
abbrev S320000x64 : Shape := ⟨2, ![320000, 64]⟩
abbrev S1x64 : Shape := ⟨2, ![1, 64]⟩

abbrev nBuf : Space → Nat
  | .hbm => 266
  | .vmem => 0
  | .smem => 0
  | _ => 0

abbrev hbmTy0_0 (i : Nat) : BufTy := match i % 128 with
  | 0 => ⟨S320000x128, .f32⟩
  | 1 => ⟨S320000, .i32⟩
  | 2 => ⟨S320000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S64x128, .f32⟩
  | 12 => ⟨S64, .f32⟩
  | 13 => ⟨S_, .f32⟩
  | 14 => ⟨S320000, .f32⟩
  | 15 => ⟨S_, .f32⟩
  | 16 => ⟨S10000, .f32⟩
  | 17 => ⟨S320000x1, .i32⟩
  | 18 => ⟨S10000, .f32⟩
  | 19 => ⟨S_, .f32⟩
  | 20 => ⟨S10000x128, .f32⟩
  | 21 => ⟨S320000x1, .i32⟩
  | 22 => ⟨S10000x128, .f32⟩
  | 23 => ⟨S10000x1, .f32⟩
  | 24 => ⟨S10000x128, .f32⟩
  | 25 => ⟨S10000x128, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x128, .f32⟩
  | 35 => ⟨S_, .f32⟩
  | 36 => ⟨S10000x128, .f32⟩
  | 37 => ⟨S320000x1, .i32⟩
  | 38 => ⟨S10000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x128, .f32⟩
  | 57 => ⟨S320000x128, .f32⟩
  | 58 => ⟨S_, .f32⟩
  | 59 => ⟨S320000x128, .f32⟩
  | 60 => ⟨S320000x128, .f32⟩
  | 61 => ⟨S128x128, .f32⟩
  | 62 => ⟨S320000x128, .f32⟩
  | 63 => ⟨S1x128, .f32⟩
  | 64 => ⟨S320000x128, .f32⟩
  | 65 => ⟨S320000x128, .f32⟩
  | 66 => ⟨S_, .f32⟩
  | 67 => ⟨S320000x128, .f32⟩
  | 68 => ⟨S320000x128, .f32⟩
  | 69 => ⟨S_, .f32⟩
  | 70 => ⟨S10000x128, .f32⟩
  | 71 => ⟨S320000x1, .i32⟩
  | 72 => ⟨S10000x128, .f32⟩
  | 73 => ⟨S10000x1, .f32⟩
  | 74 => ⟨S10000x128, .f32⟩
  | 75 => ⟨S10000x128, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x128, .f32⟩
  | 85 => ⟨S_, .f32⟩
  | 86 => ⟨S10000x128, .f32⟩
  | 87 => ⟨S320000x1, .i32⟩
  | 88 => ⟨S10000x128, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000x128, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x128, .f32⟩
  | 107 => ⟨S320000x128, .f32⟩
  | 108 => ⟨S_, .f32⟩
  | 109 => ⟨S320000x128, .f32⟩
  | 110 => ⟨S320000x128, .f32⟩
  | 111 => ⟨S128x128, .f32⟩
  | 112 => ⟨S320000x128, .f32⟩
  | 113 => ⟨S1x128, .f32⟩
  | 114 => ⟨S320000x128, .f32⟩
  | 115 => ⟨S320000x128, .f32⟩
  | 116 => ⟨S_, .f32⟩
  | 117 => ⟨S320000x128, .f32⟩
  | 118 => ⟨S320000x128, .f32⟩
  | 119 => ⟨S_, .f32⟩
  | 120 => ⟨S10000x128, .f32⟩
  | 121 => ⟨S320000x1, .i32⟩
  | 122 => ⟨S10000x128, .f32⟩
  | 123 => ⟨S10000x1, .f32⟩
  | 124 => ⟨S10000x128, .f32⟩
  | 125 => ⟨S10000x128, .f32⟩
  | 126 => ⟨S_, .i32⟩
  | 127 => ⟨S320000, .i32⟩
  | _ => ⟨S320000x128, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000x128, .f32⟩
  | 7 => ⟨S_, .f32⟩
  | 8 => ⟨S10000x128, .f32⟩
  | 9 => ⟨S320000x1, .i32⟩
  | 10 => ⟨S10000x128, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x128, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x128, .f32⟩
  | 29 => ⟨S320000x128, .f32⟩
  | 30 => ⟨S_, .f32⟩
  | 31 => ⟨S320000x128, .f32⟩
  | 32 => ⟨S320000x128, .f32⟩
  | 33 => ⟨S128x128, .f32⟩
  | 34 => ⟨S320000x128, .f32⟩
  | 35 => ⟨S1x128, .f32⟩
  | 36 => ⟨S320000x128, .f32⟩
  | 37 => ⟨S320000x128, .f32⟩
  | 38 => ⟨S_, .f32⟩
  | 39 => ⟨S320000x128, .f32⟩
  | 40 => ⟨S320000x128, .f32⟩
  | 41 => ⟨S_, .f32⟩
  | 42 => ⟨S10000x128, .f32⟩
  | 43 => ⟨S320000x1, .i32⟩
  | 44 => ⟨S10000x128, .f32⟩
  | 45 => ⟨S10000x1, .f32⟩
  | 46 => ⟨S10000x128, .f32⟩
  | 47 => ⟨S10000x128, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x128, .f32⟩
  | 57 => ⟨S_, .f32⟩
  | 58 => ⟨S10000x128, .f32⟩
  | 59 => ⟨S320000x1, .i32⟩
  | 60 => ⟨S10000x128, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x128, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x128, .f32⟩
  | 79 => ⟨S320000x128, .f32⟩
  | 80 => ⟨S_, .f32⟩
  | 81 => ⟨S320000x128, .f32⟩
  | 82 => ⟨S320000x128, .f32⟩
  | 83 => ⟨S128x128, .f32⟩
  | 84 => ⟨S320000x128, .f32⟩
  | 85 => ⟨S1x128, .f32⟩
  | 86 => ⟨S320000x128, .f32⟩
  | 87 => ⟨S320000x128, .f32⟩
  | 88 => ⟨S_, .f32⟩
  | 89 => ⟨S320000x128, .f32⟩
  | 90 => ⟨S320000x128, .f32⟩
  | 91 => ⟨S_, .f32⟩
  | 92 => ⟨S10000x128, .f32⟩
  | 93 => ⟨S320000x1, .i32⟩
  | 94 => ⟨S10000x128, .f32⟩
  | 95 => ⟨S10000x1, .f32⟩
  | 96 => ⟨S10000x128, .f32⟩
  | 97 => ⟨S10000x128, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x128, .f32⟩
  | 107 => ⟨S_, .f32⟩
  | 108 => ⟨S10000x128, .f32⟩
  | 109 => ⟨S320000x1, .i32⟩
  | 110 => ⟨S10000x128, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x128, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S320000x128, .f32⟩

abbrev hbmTy0_2 (i : Nat) : BufTy := match i % 128 with
  | 0 => ⟨S320000x128, .f32⟩
  | 1 => ⟨S320000x128, .f32⟩
  | 2 => ⟨S_, .f32⟩
  | 3 => ⟨S320000x128, .f32⟩
  | 4 => ⟨S320000x128, .f32⟩
  | 5 => ⟨S128x64, .f32⟩
  | 6 => ⟨S320000x64, .f32⟩
  | 7 => ⟨S1x64, .f32⟩
  | 8 => ⟨S320000x64, .f32⟩
  | 9 => ⟨S320000x64, .f32⟩
  | _ => ⟨S320000x128, .f32⟩

abbrev hbmTy (i : Nat) : BufTy := match i / 128 with
  | 0 => hbmTy0_0 i
  | 1 => hbmTy0_1 i
  | 2 => hbmTy0_2 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call0_cst : Ref sig .tc := ⟨.hbm, 66, rfl⟩
abbrev main_call0_v0 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_c_11 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_17 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call1_cst : Ref sig .tc := ⟨.hbm, 116, rfl⟩
abbrev main_call1_v0 : Ref sig .tc := ⟨.hbm, 117, rfl⟩
abbrev main_v81 : Ref sig .tc := ⟨.hbm, 118, rfl⟩
abbrev main_cst_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_19 : Ref sig .tc := ⟨.hbm, 126, rfl⟩
abbrev main_v88 : Ref sig .tc := ⟨.hbm, 127, rfl⟩
abbrev main_v89 : Ref sig .tc := ⟨.hbm, 128, rfl⟩
abbrev main_c_20 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_22 : Ref sig .tc := ⟨.hbm, 139, rfl⟩
abbrev main_v98 : Ref sig .tc := ⟨.hbm, 140, rfl⟩
abbrev main_v99 : Ref sig .tc := ⟨.hbm, 141, rfl⟩
abbrev main_c_23 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_24 : Ref sig .tc := ⟨.hbm, 148, rfl⟩
abbrev main_v105 : Ref sig .tc := ⟨.hbm, 149, rfl⟩
abbrev main_v106 : Ref sig .tc := ⟨.hbm, 150, rfl⟩
abbrev main_c_25 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_26 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call2_cst : Ref sig .tc := ⟨.hbm, 166, rfl⟩
abbrev main_call2_v0 : Ref sig .tc := ⟨.hbm, 167, rfl⟩
abbrev main_v120 : Ref sig .tc := ⟨.hbm, 168, rfl⟩
abbrev main_cst_27 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_28 : Ref sig .tc := ⟨.hbm, 176, rfl⟩
abbrev main_v127 : Ref sig .tc := ⟨.hbm, 177, rfl⟩
abbrev main_v128 : Ref sig .tc := ⟨.hbm, 178, rfl⟩
abbrev main_c_29 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_30 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_c_31 : Ref sig .tc := ⟨.hbm, 189, rfl⟩
abbrev main_v137 : Ref sig .tc := ⟨.hbm, 190, rfl⟩
abbrev main_v138 : Ref sig .tc := ⟨.hbm, 191, rfl⟩
abbrev main_c_32 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_c_33 : Ref sig .tc := ⟨.hbm, 198, rfl⟩
abbrev main_v144 : Ref sig .tc := ⟨.hbm, 199, rfl⟩
abbrev main_v145 : Ref sig .tc := ⟨.hbm, 200, rfl⟩
abbrev main_c_34 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_cst_35 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_call3_cst : Ref sig .tc := ⟨.hbm, 216, rfl⟩
abbrev main_call3_v0 : Ref sig .tc := ⟨.hbm, 217, rfl⟩
abbrev main_v159 : Ref sig .tc := ⟨.hbm, 218, rfl⟩
abbrev main_cst_36 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_c_37 : Ref sig .tc := ⟨.hbm, 226, rfl⟩
abbrev main_v166 : Ref sig .tc := ⟨.hbm, 227, rfl⟩
abbrev main_v167 : Ref sig .tc := ⟨.hbm, 228, rfl⟩
abbrev main_c_38 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_cst_39 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_c_40 : Ref sig .tc := ⟨.hbm, 239, rfl⟩
abbrev main_v176 : Ref sig .tc := ⟨.hbm, 240, rfl⟩
abbrev main_v177 : Ref sig .tc := ⟨.hbm, 241, rfl⟩
abbrev main_c_41 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_c_42 : Ref sig .tc := ⟨.hbm, 248, rfl⟩
abbrev main_v183 : Ref sig .tc := ⟨.hbm, 249, rfl⟩
abbrev main_v184 : Ref sig .tc := ⟨.hbm, 250, rfl⟩
abbrev main_c_43 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_cst_44 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S320000x128 : S_.BroadcastsInDim S320000x128 (![] : Fin 0 → Fin S320000x128.rank)
  transposes_S128x128_S128x128_1_0 : S128x128.Transposes [1, 0] S128x128
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  transposes_S64x128_S128x64_1_0 : S64x128.Transposes [1, 0] S128x64
  bcast_S64_S1x64_1 : S64.BroadcastsInDim S1x64 (![1] : Fin 1 → Fin S1x64.rank)
  bcast_S1x64_S320000x64_0_1 : S1x64.BroadcastsInDim S320000x64 (![0, 1] : Fin 2 → Fin S320000x64.rank)
  scatter_S10000_S320000x1_S320000_n_0_0_1_wf : ScatterDims.WF S10000 S320000x1 S320000 [] [0] [0] 1
  scatter_S10000x128_S320000x1_S320000x128_1_0_0_1_wf : ScatterDims.WF S10000x128 S320000x1 S320000x128 [1] [0] [0] 1
  gather_S10000x128_S320000x1_S320000x128_1_0_n_n_0_1_1128_wf : GatherDims.WF S10000x128 S320000x1 S320000x128 [1] [0] [] [0] [] 1 ![1, 128]
  dot_S320000x128_S128x128_S320000x128_1_0_0_1_n_n_wf : DotDims.WF S320000x128 S128x128 S320000x128 [1] [0] [0] [1] [] []
  dot_S320000x128_S128x64_S320000x64_1_0_0_1_n_n_wf : DotDims.WF S320000x128 S128x64 S320000x64 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x64_S320000x64_1_0_0_1_n_n : DotDims S320000x128 S128x64 S320000x64 where
  lhsContracting := [1]
  rhsContracting := [0]
  lhsNonContracting := [0]
  rhsNonContracting := [1]
  lhsBatch := []
  rhsBatch := []
  wf := dot_S320000x128_S128x64_S320000x64_1_0_0_1_n_n_wf

class Facts : Prop extends Facts₀ where

variable [Facts]
-- ==== Proof.KernelRun.lean ====
/-
  The kernel's run with its result named.

  Every weakly fair execution of the kernel's @main terminates without a fault; in the final state the thirteen
  argument arrays are as launched, and the result array holds what the fold of buffer contents through @main — a
  stretch of host operations, then a region's write-backs, five times over — leaves in it after the last region.
-/
import proofs.«145168_j27986006901493_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the ten segments of @main, its last thread state read against the final state: every unscoped buffer
    ends at the last boundary's contents; the result buffer is one of them, and each argument's contents there walk back
    to the launch memory. -/
theorem run_with_result : θ_run defs (onTc (τ := τ) (main (F := F))) ⟨m, fun _ => 0, ρ⟩ (fun r => ∀ c : Dev nD,
      r.2.mem ((c.tc : Thread nD τ).loc main_v183) = W10 m ρ c (Proc.devRef .tc main_v183)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v183 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Gen

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.Dense.lean ====
/-
  One block of a dense layer, read at an entry.

  The body of every region holds a block of 8000 rows of the layer's input, the whole weight matrix laid out
  [in, out], and the bias as one row. It forms the matrix product of the block with the weights into a zero
  accumulator (both factors first narrowed to bf16, which on the extended reals changes nothing), adds the bias row to
  every row, and, in every layer but the last, takes the maximum with zero. So entry (p, q) of what the body stores is
  max (∑ₑ x(p,e) · w(e,q) + b(0,q), 0), and in the last layer the sum alone, with 64 output columns.
-/
import proofs.«145168_j27986006901493_2_alg».proof.Proof.Gen.KernelIdeal.Skeleton
import proofs.«145168_j27986006901493_2_alg».proof.Proof.LibMatmulNN
import proofs.«145168_j27986006901493_2_alg».proof.Proof.LibBiasRow
import Idealize.ShloMosaic.Lib.ValueIdx
import Idealize.ShloMosaic.Lib.Pipeline.Value

noncomputable section

namespace Cert.KernelIdeal.Dense

open Idealize.ShloMosaic Idealize.ShloMosaic.ValueIdx Cert.KernelIdeal Cert.KernelIdeal.Gen

/-- Entry (p, q) of a rectified block: row p of the block against column q of the weights, plus the bias at q,
    cut off below at zero. The four rectified layers store the same function of their three loads. -/
theorem block_relu_apply (x0 : FVec Ideal S8000x128 .f32) (x1 : FVec Ideal S128x128 .f32) (x2 : FVec Ideal S1x128 .f32)
    (p : Fin 8000) (q : Fin 128) :
    k0_pay1 (F := Ideal) x0 x1 x2 (ix2 p q)
      = max ((∑ e : Fin 128, x0 (ix2 p e) * x1 (ix2 e q)) + x2 (ix2 (0 : Fin 1) q)) (Ideal.ofBits .f32 0x00000000#32) := by
  show max (FloatOps.matmul (LibMatmulNN.dims _) none
        (truncf .bf16 (shapeCast S8000x128 x0 _) _) (truncf .bf16 (shapeCast S128x128 x1 _) _)
        (constant (F := Ideal) S8000x128 .f32 0x00000000#32) (ix2 p q)
      + broadcastTo S8000x128 (shapeCast S1x128 x2 _) _ (ix2 p q)) (Ideal.ofBits .f32 0x00000000#32) = _
  rw [LibMatmulNN.matmul_zero_apply, BiasRead.row_down_apply]
  simp only [truncf_apply, shapeCast_self]

theorem block_relu_apply1 (x0 : FVec Ideal S8000x128 .f32) (x1 : FVec Ideal S128x128 .f32) (x2 : FVec Ideal S1x128 .f32)
    (p : Fin 8000) (q : Fin 128) :
    k1_pay1 (F := Ideal) x0 x1 x2 (ix2 p q)
      = max ((∑ e : Fin 128, x0 (ix2 p e) * x1 (ix2 e q)) + x2 (ix2 (0 : Fin 1) q)) (Ideal.ofBits .f32 0x00000000#32) :=
  block_relu_apply x0 x1 x2 p q

theorem block_relu_apply2 (x0 : FVec Ideal S8000x128 .f32) (x1 : FVec Ideal S128x128 .f32) (x2 : FVec Ideal S1x128 .f32)
    (p : Fin 8000) (q : Fin 128) :
    k2_pay1 (F := Ideal) x0 x1 x2 (ix2 p q)
      = max ((∑ e : Fin 128, x0 (ix2 p e) * x1 (ix2 e q)) + x2 (ix2 (0 : Fin 1) q)) (Ideal.ofBits .f32 0x00000000#32) :=
  block_relu_apply x0 x1 x2 p q

theorem block_relu_apply3 (x0 : FVec Ideal S8000x128 .f32) (x1 : FVec Ideal S128x128 .f32) (x2 : FVec Ideal S1x128 .f32)
    (p : Fin 8000) (q : Fin 128) :
    k3_pay1 (F := Ideal) x0 x1 x2 (ix2 p q)
      = max ((∑ e : Fin 128, x0 (ix2 p e) * x1 (ix2 e q)) + x2 (ix2 (0 : Fin 1) q)) (Ideal.ofBits .f32 0x00000000#32) :=
  block_relu_apply x0 x1 x2 p q

/-- Entry (p, q) of a block of the last layer: row p of the block against column q of the 128 × 64 weights, plus the
    bias at q; no cut-off. -/
theorem block_last_apply (x0 : FVec Ideal S8000x128 .f32) (x1 : FVec Ideal S128x64 .f32) (x2 : FVec Ideal S1x64 .f32)
    (p : Fin 8000) (q : Fin 64) :
    k4_pay1 (F := Ideal) x0 x1 x2 (ix2 p q)
      = (∑ e : Fin 128, x0 (ix2 p e) * x1 (ix2 e q)) + x2 (ix2 (0 : Fin 1) q) := by
  show FloatOps.matmul (LibMatmulNN.dims _) none
        (truncf .bf16 (shapeCast S8000x128 x0 _) _) (truncf .bf16 (shapeCast S128x64 x1 _) _)
        (constant (F := Ideal) S8000x64 .f32 0x00000000#32) (ix2 p q)
      + broadcastTo S8000x64 (shapeCast S1x64 x2 _) _ (ix2 p q) = _
  rw [LibMatmulNN.matmul_zero_apply, BiasRead.row_down_apply]
  simp only [truncf_apply, shapeCast_self]

/-! ## The layer on whole arrays -/

/-- A rectified dense layer on the whole edge array: entry (r, q) is row r of the input against column q of the
    weights (laid out [in, out]), plus the bias row at q, cut off below at zero. -/
def layerRelu (X : S320000x128.Idx → EReal) (W : S128x128.Idx → EReal) (b : S1x128.Idx → EReal) : S320000x128.Idx → EReal :=
  fun i => max ((∑ e : Fin 128, X (ix2 (i 0) e) * W (ix2 e (i 1))) + b (ix2 (0 : Fin 1) (i 1))) (Ideal.ofBits .f32 0x00000000#32)

/-- The last dense layer on the whole edge array: 64 output columns and no cut-off. -/
def layerLast (X : S320000x128.Idx → EReal) (W : S128x64.Idx → EReal) (b : S1x64.Idx → EReal) : S320000x64.Idx → EReal :=
  fun i => (∑ e : Fin 128, X (ix2 (i 0) e) * W (ix2 e (i 1))) + b (ix2 (0 : Fin 1) (i 1))

theorem layerRelu_apply (X : S320000x128.Idx → EReal) (W : S128x128.Idx → EReal) (b : S1x128.Idx → EReal) (r : Fin 320000) (q : Fin 128) :
    layerRelu X W b (ix2 r q)
      = max ((∑ e : Fin 128, X (ix2 r e) * W (ix2 e q)) + b (ix2 (0 : Fin 1) q)) (Ideal.ofBits .f32 0x00000000#32) := rfl

theorem layerLast_apply (X : S320000x128.Idx → EReal) (W : S128x64.Idx → EReal) (b : S1x64.Idx → EReal) (r : Fin 320000) (q : Fin 64) :
    layerLast X W b (ix2 r q) = (∑ e : Fin 128, X (ix2 r e) * W (ix2 e q)) + b (ix2 (0 : Fin 1) q) := rfl

end Cert.KernelIdeal.Dense

end
-- ==== Proof.Rows.lean ====
/-
  A block's entries are the layer's entries.

  If a block of 8000 rows reads, at (p, e), row r of the input array, and its weight and bias loads read the whole
  weight matrix and the whole bias row, then entry (p, q) of what the block stores is entry (r, q) of the layer on the
  whole arrays.
-/
import proofs.«145168_j27986006901493_2_alg».proof.Proof.Dense

noncomputable section

namespace Cert.KernelIdeal.Dense

open Idealize.ShloMosaic Idealize.ShloMosaic.ValueIdx Cert.KernelIdeal

theorem rows_relu (X : FVec Ideal S320000x128 .f32) (W : FVec Ideal S128x128 .f32) (B : FVec Ideal S1x128 .f32)
    (x0 : FVec Ideal S8000x128 .f32) (x1 : FVec Ideal S128x128 .f32) (x2 : FVec Ideal S1x128 .f32)
    (r : Fin 320000) (p : Fin 8000) (q : Fin 128)
    (h0 : ∀ e : Fin 128, x0 (ix2 p e) = X (ix2 r e)) (h1 : ∀ e : Fin 128, x1 (ix2 e q) = W (ix2 e q))
    (h2 : x2 (ix2 (0 : Fin 1) q) = B (ix2 (0 : Fin 1) q)) :
    max ((∑ e : Fin 128, x0 (ix2 p e) * x1 (ix2 e q)) + x2 (ix2 (0 : Fin 1) q)) (Ideal.ofBits .f32 0x00000000#32)
      = layerRelu X W B (ix2 r q) := by
  rw [layerRelu_apply, h2]
  simp only [h0, h1]

theorem rows_last (X : FVec Ideal S320000x128 .f32) (W : FVec Ideal S128x64 .f32) (B : FVec Ideal S1x64 .f32)
    (x0 : FVec Ideal S8000x128 .f32) (x1 : FVec Ideal S128x64 .f32) (x2 : FVec Ideal S1x64 .f32)
    (r : Fin 320000) (p : Fin 8000) (q : Fin 64)
    (h0 : ∀ e : Fin 128, x0 (ix2 p e) = X (ix2 r e)) (h1 : ∀ e : Fin 128, x1 (ix2 e q) = W (ix2 e q))
    (h2 : x2 (ix2 (0 : Fin 1) q) = B (ix2 (0 : Fin 1) q)) :
    (∑ e : Fin 128, x0 (ix2 p e) * x1 (ix2 e q)) + x2 (ix2 (0 : Fin 1) q) = layerLast X W B (ix2 r q) := by
  rw [layerLast_apply, h2]
  simp only [h0, h1]

end Cert.KernelIdeal.Dense

end
-- ==== Proof.Region0.lean ====
/-
  Region 0: from the blocks its grid points write back to the whole output array.

  Grid point t of the 40 loads rows 8000·t … 8000·t + 7999 of the region's input, the whole weight matrix and the whole
  bias row, and writes back the same rows of the output. So the block that point t flushes is the restriction to those
  rows of ONE function of the three arrays as the region finds them — the rectified dense layer — and, the 40 row
  blocks tiling the 320000 rows, the output array ends holding that function everywhere.
-/
import proofs.«145168_j27986006901493_2_alg».proof.Proof.Gen.KernelIdeal.Frame
import proofs.«145168_j27986006901493_2_alg».proof.Proof.Rows

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the input and the output move down one block of rows per point, in column
    block 0; the weights and the bias row stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 4000000 in
/-- What point t writes back is rows 8000·t … of the layer's function of the arrays the region finds. -/
theorem flushed_rows (c : Dev nD) (t : Fin cfg0.N) :
    (dat0 V c).flushed 3 t
      = ((cfg0.win 3).blk t).view.read (Elt Ideal) (layerRelu (V c main_v41) (V c main_v4) (V c main_v42)) := by
  show (cfg0.win 3).cut (grid0.coords t) ((dat0 V c).after 3 t) = _
  rw [after0_3]
  unfold out0_3
  rw [View.canon_unit_zero offsets_zero]
  simp only [View.ld_unit_zero (S := S8000x128) offsets_zero, View.ld_unit_zero (S := S128x128) offsets_zero,
    View.ld_unit_zero (S := S1x128) offsets_zero]
  obtain ⟨e0, e1, e2, e3, e4, e5, e6, e7⟩ := block_indices t
  have ht : t.val < 40 := lt_of_lt_of_eq t.isLt N_0
  funext j
  obtain ⟨p, q, rfl⟩ : ∃ (p : Fin 8000) (q : Fin 128), j = ix2 p q := ⟨j 0, j 1, eq_ix2 j⟩
  refine (block_relu_apply (iblk0 V c 0 t) (iblk0 V c 1 t) (iblk0 V c 2 t) p q).trans ?_
  have hp : p.val < 8000 := p.isLt
  have hrow : t.val * 8000 + p.val < 320000 := by omega
  have h3 : ((cfg0.win 3).blk t).view.emb (ix2 p q) = ix2 (⟨t.val * 8000 + p.val, hrow⟩ : Fin 320000) q := by
    funext a; apply Fin.ext
    match a with
    | ⟨0, _⟩ => show win0_3.index t (0 : Fin 2) * 8000 + 1 * p.val = t.val * 8000 + p.val; omega
    | ⟨1, _⟩ => show win0_3.index t (1 : Fin 2) * 128 + 1 * q.val = q.val; omega
  have h0 : ∀ e : Fin 128, ((cfg0.win 0).blk t).view.emb (ix2 p e) = ix2 (⟨t.val * 8000 + p.val, hrow⟩ : Fin 320000) e := by
    intro e; funext a; apply Fin.ext
    match a with
    | ⟨0, _⟩ => show win0_0.index t (0 : Fin 2) * 8000 + 1 * p.val = t.val * 8000 + p.val; omega
    | ⟨1, _⟩ => show win0_0.index t (1 : Fin 2) * 128 + 1 * e.val = e.val; omega
  have h1 : ∀ e : Fin 128, ((cfg0.win 1).blk t).view.emb (ix2 e q) = ix2 e q := by
    intro e; funext a; apply Fin.ext
    match a with
    | ⟨0, _⟩ => show win0_1.index t (0 : Fin 2) * 128 + 1 * e.val = e.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  show _ = layerRelu (V c main_v41) (V c main_v4) (V c main_v42) (((cfg0.win 3).blk t).view.emb (ix2 p q))
  rw [h3]
  exact rows_relu (V c main_v41) (V c main_v4) (V c main_v42) (iblk0 V c 0 t) (iblk0 V c 1 t) (iblk0 V c 2 t)
    ⟨t.val * 8000 + p.val, hrow⟩ p q (fun e => congrArg (V c main_v41) (h0 e)) (fun e => congrArg (V c main_v4) (h1 e)) (congrArg (V c main_v42) h2)

/-- An index of the output array is in point t's block iff each coordinate is in the block's range on its axis. -/
theorem mem_rows (t : Fin cfg0.N) (i : S320000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v43).slice (win0_3.rect t)).set ↔ _
  rw [View.set_slice_whole, Rect.mem_set_unit]
  exact Iff.rfl

/-- Row r of the output lies in the block of point r / 8000. -/
theorem rows_cover (i : S320000x128.Idx) :
    ∃ t : Fin cfg0.N, (cfg0.win 3).flush t = true ∧ i ∈ ((cfg0.win 3).blk t).view.set := by
  have hi0 : (i 0).val < 320000 := (i 0).isLt
  have hi1 : (i 1).val < 128 := (i 1).isLt
  have hN : grid0.N = 40 := N_0
  have hlt : (i 0).val / 8000 < cfg0.N := by show _ < grid0.N; omega
  obtain ⟨-, -, -, -, -, -, e6, e7⟩ := block_indices ⟨(i 0).val / 8000, hlt⟩
  refine ⟨⟨(i 0).val / 8000, hlt⟩, flush0_3 _, ?_⟩
  rw [mem_rows]
  intro a
  match a with
  | ⟨0, _⟩ =>
    show win0_3.index ⟨(i 0).val / 8000, hlt⟩ (0 : Fin 2) * 8000 ≤ (i 0).val
      ∧ (i 0).val < win0_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, hlt⟩ (1 : Fin 2) * 128 ≤ (i 1).val
      ∧ (i 1).val < win0_3.index ⟨(i 0).val / 8000, hlt⟩ (1 : Fin 2) * 128 + 128
    rw [e7]; omega

/-- THE REGION'S VALUE: its output array ends holding the rectified dense layer of the three arrays it reads, as
    the region finds them. -/
theorem output (c : Dev nD) :
    (dat0 V c).arrAt 3 cfg0.N = layerRelu (V c main_v41) (V c main_v4) (V c main_v42) :=
  (dat0 V c).arrAt_eq_of_cover 3 _ (fun t _ => flushed_rows V c t) rows_cover

end Cert.KernelIdeal.Region0

end
-- ==== Proof.Region1.lean ====
/-
  Region 1: from the blocks its grid points write back to the whole output array.

  Grid point t of the 40 loads rows 8000·t … 8000·t + 7999 of the region's input, the whole weight matrix and the whole
  bias row, and writes back the same rows of the output. So the block that point t flushes is the restriction to those
  rows of ONE function of the three arrays as the region finds them — the rectified dense layer — and, the 40 row
  blocks tiling the 320000 rows, the output array ends holding that function everywhere.
-/
import proofs.«145168_j27986006901493_2_alg».proof.Proof.Gen.KernelIdeal.Frame
import proofs.«145168_j27986006901493_2_alg».proof.Proof.Rows

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the input and the output move down one block of rows per point, in column
    block 0; the weights and the bias row stay at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 4000000 in
/-- What point t writes back is rows 8000·t … of the layer's function of the arrays the region finds. -/
theorem flushed_rows (c : Dev nD) (t : Fin cfg1.N) :
    (dat1 V c).flushed 3 t
      = ((cfg1.win 3).blk t).view.read (Elt Ideal) (layerRelu (V c main_v76) (V c main_v5) (V c main_v77)) := by
  show (cfg1.win 3).cut (grid1.coords t) ((dat1 V c).after 3 t) = _
  rw [after1_3]
  unfold out1_3
  rw [View.canon_unit_zero offsets_zero]
  simp only [View.ld_unit_zero (S := S8000x128) offsets_zero, View.ld_unit_zero (S := S128x128) offsets_zero,
    View.ld_unit_zero (S := S1x128) offsets_zero]
  obtain ⟨e0, e1, e2, e3, e4, e5, e6, e7⟩ := block_indices t
  have ht : t.val < 40 := lt_of_lt_of_eq t.isLt N_1
  funext j
  obtain ⟨p, q, rfl⟩ : ∃ (p : Fin 8000) (q : Fin 128), j = ix2 p q := ⟨j 0, j 1, eq_ix2 j⟩
  refine (block_relu_apply1 (iblk1 V c 0 t) (iblk1 V c 1 t) (iblk1 V c 2 t) p q).trans ?_
  have hp : p.val < 8000 := p.isLt
  have hrow : t.val * 8000 + p.val < 320000 := by omega
  have h3 : ((cfg1.win 3).blk t).view.emb (ix2 p q) = ix2 (⟨t.val * 8000 + p.val, hrow⟩ : Fin 320000) q := by
    funext a; apply Fin.ext
    match a with
    | ⟨0, _⟩ => show win1_3.index t (0 : Fin 2) * 8000 + 1 * p.val = t.val * 8000 + p.val; omega
    | ⟨1, _⟩ => show win1_3.index t (1 : Fin 2) * 128 + 1 * q.val = q.val; omega
  have h0 : ∀ e : Fin 128, ((cfg1.win 0).blk t).view.emb (ix2 p e) = ix2 (⟨t.val * 8000 + p.val, hrow⟩ : Fin 320000) e := by
    intro e; funext a; apply Fin.ext
    match a with
    | ⟨0, _⟩ => show win1_0.index t (0 : Fin 2) * 8000 + 1 * p.val = t.val * 8000 + p.val; omega
    | ⟨1, _⟩ => show win1_0.index t (1 : Fin 2) * 128 + 1 * e.val = e.val; omega
  have h1 : ∀ e : Fin 128, ((cfg1.win 1).blk t).view.emb (ix2 e q) = ix2 e q := by
    intro e; funext a; apply Fin.ext
    match a with
    | ⟨0, _⟩ => show win1_1.index t (0 : Fin 2) * 128 + 1 * e.val = e.val; omega
    | ⟨1, _⟩ => show win1_1.index t (1 : Fin 2) * 128 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  show _ = layerRelu (V c main_v76) (V c main_v5) (V c main_v77) (((cfg1.win 3).blk t).view.emb (ix2 p q))
  rw [h3]
  exact rows_relu (V c main_v76) (V c main_v5) (V c main_v77) (iblk1 V c 0 t) (iblk1 V c 1 t) (iblk1 V c 2 t)
    ⟨t.val * 8000 + p.val, hrow⟩ p q (fun e => congrArg (V c main_v76) (h0 e)) (fun e => congrArg (V c main_v5) (h1 e)) (congrArg (V c main_v77) h2)

/-- An index of the output array is in point t's block iff each coordinate is in the block's range on its axis. -/
theorem mem_rows (t : Fin cfg1.N) (i : S320000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v78).slice (win1_3.rect t)).set ↔ _
  rw [View.set_slice_whole, Rect.mem_set_unit]
  exact Iff.rfl

/-- Row r of the output lies in the block of point r / 8000. -/
theorem rows_cover (i : S320000x128.Idx) :
    ∃ t : Fin cfg1.N, (cfg1.win 3).flush t = true ∧ i ∈ ((cfg1.win 3).blk t).view.set := by
  have hi0 : (i 0).val < 320000 := (i 0).isLt
  have hi1 : (i 1).val < 128 := (i 1).isLt
  have hN : grid1.N = 40 := N_1
  have hlt : (i 0).val / 8000 < cfg1.N := by show _ < grid1.N; omega
  obtain ⟨-, -, -, -, -, -, e6, e7⟩ := block_indices ⟨(i 0).val / 8000, hlt⟩
  refine ⟨⟨(i 0).val / 8000, hlt⟩, flush1_3 _, ?_⟩
  rw [mem_rows]
  intro a
  match a with
  | ⟨0, _⟩ =>
    show win1_3.index ⟨(i 0).val / 8000, hlt⟩ (0 : Fin 2) * 8000 ≤ (i 0).val
      ∧ (i 0).val < win1_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win1_3.index ⟨(i 0).val / 8000, hlt⟩ (1 : Fin 2) * 128 ≤ (i 1).val
      ∧ (i 1).val < win1_3.index ⟨(i 0).val / 8000, hlt⟩ (1 : Fin 2) * 128 + 128
    rw [e7]; omega

/-- THE REGION'S VALUE: its output array ends holding the rectified dense layer of the three arrays it reads, as
    the region finds them. -/
theorem output (c : Dev nD) :
    (dat1 V c).arrAt 3 cfg1.N = layerRelu (V c main_v76) (V c main_v5) (V c main_v77) :=
  (dat1 V c).arrAt_eq_of_cover 3 _ (fun t _ => flushed_rows V c t) rows_cover

end Cert.KernelIdeal.Region1

end
-- ==== Proof.Region2.lean ====
/-
  Region 2: from the blocks its grid points write back to the whole output array.

  Grid point t of the 40 loads rows 8000·t … 8000·t + 7999 of the region's input, the whole weight matrix and the whole
  bias row, and writes back the same rows of the output. So the block that point t flushes is the restriction to those
  rows of ONE function of the three arrays as the region finds them — the rectified dense layer — and, the 40 row
  blocks tiling the 320000 rows, the output array ends holding that function everywhere.
-/
import proofs.«145168_j27986006901493_2_alg».proof.Proof.Gen.KernelIdeal.Frame
import proofs.«145168_j27986006901493_2_alg».proof.Proof.Rows

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the input and the output move down one block of rows per point, in column
    block 0; the weights and the bias row stay at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 4000000 in
/-- What point t writes back is rows 8000·t … of the layer's function of the arrays the region finds. -/
theorem flushed_rows (c : Dev nD) (t : Fin cfg2.N) :
    (dat2 V c).flushed 3 t
      = ((cfg2.win 3).blk t).view.read (Elt Ideal) (layerRelu (V c main_v111) (V c main_v6) (V c main_v112)) := by
  show (cfg2.win 3).cut (grid2.coords t) ((dat2 V c).after 3 t) = _
  rw [after2_3]
  unfold out2_3
  rw [View.canon_unit_zero offsets_zero]
  simp only [View.ld_unit_zero (S := S8000x128) offsets_zero, View.ld_unit_zero (S := S128x128) offsets_zero,
    View.ld_unit_zero (S := S1x128) offsets_zero]
  obtain ⟨e0, e1, e2, e3, e4, e5, e6, e7⟩ := block_indices t
  have ht : t.val < 40 := lt_of_lt_of_eq t.isLt N_2
  funext j
  obtain ⟨p, q, rfl⟩ : ∃ (p : Fin 8000) (q : Fin 128), j = ix2 p q := ⟨j 0, j 1, eq_ix2 j⟩
  refine (block_relu_apply2 (iblk2 V c 0 t) (iblk2 V c 1 t) (iblk2 V c 2 t) p q).trans ?_
  have hp : p.val < 8000 := p.isLt
  have hrow : t.val * 8000 + p.val < 320000 := by omega
  have h3 : ((cfg2.win 3).blk t).view.emb (ix2 p q) = ix2 (⟨t.val * 8000 + p.val, hrow⟩ : Fin 320000) q := by
    funext a; apply Fin.ext
    match a with
    | ⟨0, _⟩ => show win2_3.index t (0 : Fin 2) * 8000 + 1 * p.val = t.val * 8000 + p.val; omega
    | ⟨1, _⟩ => show win2_3.index t (1 : Fin 2) * 128 + 1 * q.val = q.val; omega
  have h0 : ∀ e : Fin 128, ((cfg2.win 0).blk t).view.emb (ix2 p e) = ix2 (⟨t.val * 8000 + p.val, hrow⟩ : Fin 320000) e := by
    intro e; funext a; apply Fin.ext
    match a with
    | ⟨0, _⟩ => show win2_0.index t (0 : Fin 2) * 8000 + 1 * p.val = t.val * 8000 + p.val; omega
    | ⟨1, _⟩ => show win2_0.index t (1 : Fin 2) * 128 + 1 * e.val = e.val; omega
  have h1 : ∀ e : Fin 128, ((cfg2.win 1).blk t).view.emb (ix2 e q) = ix2 e q := by
    intro e; funext a; apply Fin.ext
    match a with
    | ⟨0, _⟩ => show win2_1.index t (0 : Fin 2) * 128 + 1 * e.val = e.val; omega
    | ⟨1, _⟩ => show win2_1.index t (1 : Fin 2) * 128 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  show _ = layerRelu (V c main_v111) (V c main_v6) (V c main_v112) (((cfg2.win 3).blk t).view.emb (ix2 p q))
  rw [h3]
  exact rows_relu (V c main_v111) (V c main_v6) (V c main_v112) (iblk2 V c 0 t) (iblk2 V c 1 t) (iblk2 V c 2 t)
    ⟨t.val * 8000 + p.val, hrow⟩ p q (fun e => congrArg (V c main_v111) (h0 e)) (fun e => congrArg (V c main_v6) (h1 e)) (congrArg (V c main_v112) h2)

/-- An index of the output array is in point t's block iff each coordinate is in the block's range on its axis. -/
theorem mem_rows (t : Fin cfg2.N) (i : S320000x128.Idx) :
    i ∈ ((cfg2.win 3).blk t).view.set ↔ ∀ a : Fin 2, win2_3.index t a * S8000x128.size a ≤ (i a).val
      ∧ (i a).val < win2_3.index t a * S8000x128.size a + S8000x128.size a := by
  show i ∈ ((View.whole main_v113).slice (win2_3.rect t)).set ↔ _
  rw [View.set_slice_whole, Rect.mem_set_unit]
  exact Iff.rfl

/-- Row r of the output lies in the block of point r / 8000. -/
theorem rows_cover (i : S320000x128.Idx) :
    ∃ t : Fin cfg2.N, (cfg2.win 3).flush t = true ∧ i ∈ ((cfg2.win 3).blk t).view.set := by
  have hi0 : (i 0).val < 320000 := (i 0).isLt
  have hi1 : (i 1).val < 128 := (i 1).isLt
  have hN : grid2.N = 40 := N_2
  have hlt : (i 0).val / 8000 < cfg2.N := by show _ < grid2.N; omega
  obtain ⟨-, -, -, -, -, -, e6, e7⟩ := block_indices ⟨(i 0).val / 8000, hlt⟩
  refine ⟨⟨(i 0).val / 8000, hlt⟩, flush2_3 _, ?_⟩
  rw [mem_rows]
  intro a
  match a with
  | ⟨0, _⟩ =>
    show win2_3.index ⟨(i 0).val / 8000, hlt⟩ (0 : Fin 2) * 8000 ≤ (i 0).val
      ∧ (i 0).val < win2_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win2_3.index ⟨(i 0).val / 8000, hlt⟩ (1 : Fin 2) * 128 ≤ (i 1).val
      ∧ (i 1).val < win2_3.index ⟨(i 0).val / 8000, hlt⟩ (1 : Fin 2) * 128 + 128
    rw [e7]; omega

/-- THE REGION'S VALUE: its output array ends holding the rectified dense layer of the three arrays it reads, as
    the region finds them. -/
theorem output (c : Dev nD) :
    (dat2 V c).arrAt 3 cfg2.N = layerRelu (V c main_v111) (V c main_v6) (V c main_v112) :=
  (dat2 V c).arrAt_eq_of_cover 3 _ (fun t _ => flushed_rows V c t) rows_cover

end Cert.KernelIdeal.Region2

end
-- ==== Proof.Region3.lean ====
/-
  Region 3: from the blocks its grid points write back to the whole output array.

  Grid point t of the 40 loads rows 8000·t … 8000·t + 7999 of the region's input, the whole weight matrix and the whole
  bias row, and writes back the same rows of the output. So the block that point t flushes is the restriction to those
  rows of ONE function of the three arrays as the region finds them — the rectified dense layer — and, the 40 row
  blocks tiling the 320000 rows, the output array ends holding that function everywhere.
-/
import proofs.«145168_j27986006901493_2_alg».proof.Proof.Gen.KernelIdeal.Frame
import proofs.«145168_j27986006901493_2_alg».proof.Proof.Rows

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the input and the output move down one block of rows per point, in column
    block 0; the weights and the bias row stay at block (0, 0). -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 4000000 in
/-- What point t writes back is rows 8000·t … of the layer's function of the arrays the region finds. -/
theorem flushed_rows (c : Dev nD) (t : Fin cfg3.N) :
    (dat3 V c).flushed 3 t
      = ((cfg3.win 3).blk t).view.read (Elt Ideal) (layerRelu (V c main_v146) (V c main_v7) (V c main_v147)) := by
  show (cfg3.win 3).cut (grid3.coords t) ((dat3 V c).after 3 t) = _
  rw [after3_3]
  unfold out3_3
  rw [View.canon_unit_zero offsets_zero]
  simp only [View.ld_unit_zero (S := S8000x128) offsets_zero, View.ld_unit_zero (S := S128x128) offsets_zero,
    View.ld_unit_zero (S := S1x128) offsets_zero]
  obtain ⟨e0, e1, e2, e3, e4, e5, e6, e7⟩ := block_indices t
  have ht : t.val < 40 := lt_of_lt_of_eq t.isLt N_3
  funext j
  obtain ⟨p, q, rfl⟩ : ∃ (p : Fin 8000) (q : Fin 128), j = ix2 p q := ⟨j 0, j 1, eq_ix2 j⟩
  refine (block_relu_apply3 (iblk3 V c 0 t) (iblk3 V c 1 t) (iblk3 V c 2 t) p q).trans ?_
  have hp : p.val < 8000 := p.isLt
  have hrow : t.val * 8000 + p.val < 320000 := by omega
  have h3 : ((cfg3.win 3).blk t).view.emb (ix2 p q) = ix2 (⟨t.val * 8000 + p.val, hrow⟩ : Fin 320000) q := by
    funext a; apply Fin.ext
    match a with
    | ⟨0, _⟩ => show win3_3.index t (0 : Fin 2) * 8000 + 1 * p.val = t.val * 8000 + p.val; omega
    | ⟨1, _⟩ => show win3_3.index t (1 : Fin 2) * 128 + 1 * q.val = q.val; omega
  have h0 : ∀ e : Fin 128, ((cfg3.win 0).blk t).view.emb (ix2 p e) = ix2 (⟨t.val * 8000 + p.val, hrow⟩ : Fin 320000) e := by
    intro e; funext a; apply Fin.ext
    match a with
    | ⟨0, _⟩ => show win3_0.index t (0 : Fin 2) * 8000 + 1 * p.val = t.val * 8000 + p.val; omega
    | ⟨1, _⟩ => show win3_0.index t (1 : Fin 2) * 128 + 1 * e.val = e.val; omega
  have h1 : ∀ e : Fin 128, ((cfg3.win 1).blk t).view.emb (ix2 e q) = ix2 e q := by
    intro e; funext a; apply Fin.ext
    match a with
    | ⟨0, _⟩ => show win3_1.index t (0 : Fin 2) * 128 + 1 * e.val = e.val; omega
    | ⟨1, _⟩ => show win3_1.index t (1 : Fin 2) * 128 + 1 * q.val = q.val; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 128 + 1 * q.val = q.val; omega
  show _ = layerRelu (V c main_v146) (V c main_v7) (V c main_v147) (((cfg3.win 3).blk t).view.emb (ix2 p q))
  rw [h3]
  exact rows_relu (V c main_v146) (V c main_v7) (V c main_v147) (iblk3 V c 0 t) (iblk3 V c 1 t) (iblk3 V c 2 t)
    ⟨t.val * 8000 + p.val, hrow⟩ p q (fun e => congrArg (V c main_v146) (h0 e)) (fun e => congrArg (V c main_v7) (h1 e)) (congrArg (V c main_v147) h2)

/-- An index of the output array is in point t's block iff each coordinate is in the block's range on its axis. -/
theorem mem_rows (t : Fin cfg3.N) (i : S320000x128.Idx) :
    i ∈ ((cfg3.win 3).blk t).view.set ↔ ∀ a : Fin 2, win3_3.index t a * S8000x128.size a ≤ (i a).val
      ∧ (i a).val < win3_3.index t a * S8000x128.size a + S8000x128.size a := by
  show i ∈ ((View.whole main_v148).slice (win3_3.rect t)).set ↔ _
  rw [View.set_slice_whole, Rect.mem_set_unit]
  exact Iff.rfl

/-- Row r of the output lies in the block of point r / 8000. -/
theorem rows_cover (i : S320000x128.Idx) :
    ∃ t : Fin cfg3.N, (cfg3.win 3).flush t = true ∧ i ∈ ((cfg3.win 3).blk t).view.set := by
  have hi0 : (i 0).val < 320000 := (i 0).isLt
  have hi1 : (i 1).val < 128 := (i 1).isLt
  have hN : grid3.N = 40 := N_3
  have hlt : (i 0).val / 8000 < cfg3.N := by show _ < grid3.N; omega
  obtain ⟨-, -, -, -, -, -, e6, e7⟩ := block_indices ⟨(i 0).val / 8000, hlt⟩
  refine ⟨⟨(i 0).val / 8000, hlt⟩, flush3_3 _, ?_⟩
  rw [mem_rows]
  intro a
  match a with
  | ⟨0, _⟩ =>
    show win3_3.index ⟨(i 0).val / 8000, hlt⟩ (0 : Fin 2) * 8000 ≤ (i 0).val
      ∧ (i 0).val < win3_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win3_3.index ⟨(i 0).val / 8000, hlt⟩ (1 : Fin 2) * 128 ≤ (i 1).val
      ∧ (i 1).val < win3_3.index ⟨(i 0).val / 8000, hlt⟩ (1 : Fin 2) * 128 + 128
    rw [e7]; omega

/-- THE REGION'S VALUE: its output array ends holding the rectified dense layer of the three arrays it reads, as
    the region finds them. -/
theorem output (c : Dev nD) :
    (dat3 V c).arrAt 3 cfg3.N = layerRelu (V c main_v146) (V c main_v7) (V c main_v147) :=
  (dat3 V c).arrAt_eq_of_cover 3 _ (fun t _ => flushed_rows V c t) rows_cover

end Cert.KernelIdeal.Region3

end
-- ==== Proof.Region4.lean ====
/-
  Region 4: from the blocks its grid points write back to the whole output array.

  Grid point t of the 40 loads rows 8000·t … 8000·t + 7999 of the region's input, the whole weight matrix and the whole
  bias row, and writes back the same rows of the output. So the block that point t flushes is the restriction to those
  rows of ONE function of the three arrays as the region finds them — the last dense layer — and, the 40 row
  blocks tiling the 320000 rows, the output array ends holding that function everywhere.
-/
import proofs.«145168_j27986006901493_2_alg».proof.Proof.Gen.KernelIdeal.Frame
import proofs.«145168_j27986006901493_2_alg».proof.Proof.Rows

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the input and the output move down one block of rows per point, in column
    block 0; the weights and the bias row stay at block (0, 0). -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 4000000 in
/-- What point t writes back is rows 8000·t … of the layer's function of the arrays the region finds. -/
theorem flushed_rows (c : Dev nD) (t : Fin cfg4.N) :
    (dat4 V c).flushed 3 t
      = ((cfg4.win 3).blk t).view.read (Elt Ideal) (layerLast (V c main_v181) (V c main_v8) (V c main_v182)) := by
  show (cfg4.win 3).cut (grid4.coords t) ((dat4 V c).after 3 t) = _
  rw [after4_3]
  unfold out4_3
  rw [View.canon_unit_zero offsets_zero]
  simp only [View.ld_unit_zero (S := S8000x128) offsets_zero, View.ld_unit_zero (S := S128x64) offsets_zero,
    View.ld_unit_zero (S := S1x64) offsets_zero, View.ld_unit_zero (S := S8000x64) offsets_zero]
  obtain ⟨e0, e1, e2, e3, e4, e5, e6, e7⟩ := block_indices t
  have ht : t.val < 40 := lt_of_lt_of_eq t.isLt N_4
  funext j
  obtain ⟨p, q, rfl⟩ : ∃ (p : Fin 8000) (q : Fin 64), j = ix2 p q := ⟨j 0, j 1, eq_ix2 j⟩
  refine (block_last_apply (iblk4 V c 0 t) (iblk4 V c 1 t) (iblk4 V c 2 t) p q).trans ?_
  have hp : p.val < 8000 := p.isLt
  have hrow : t.val * 8000 + p.val < 320000 := by omega
  have h3 : ((cfg4.win 3).blk t).view.emb (ix2 p q) = ix2 (⟨t.val * 8000 + p.val, hrow⟩ : Fin 320000) q := by
    funext a; apply Fin.ext
    match a with
    | ⟨0, _⟩ => show win4_3.index t (0 : Fin 2) * 8000 + 1 * p.val = t.val * 8000 + p.val; omega
    | ⟨1, _⟩ => show win4_3.index t (1 : Fin 2) * 64 + 1 * q.val = q.val; omega
  have h0 : ∀ e : Fin 128, ((cfg4.win 0).blk t).view.emb (ix2 p e) = ix2 (⟨t.val * 8000 + p.val, hrow⟩ : Fin 320000) e := by
    intro e; funext a; apply Fin.ext
    match a with
    | ⟨0, _⟩ => show win4_0.index t (0 : Fin 2) * 8000 + 1 * p.val = t.val * 8000 + p.val; omega
    | ⟨1, _⟩ => show win4_0.index t (1 : Fin 2) * 128 + 1 * e.val = e.val; omega
  have h1 : ∀ e : Fin 128, ((cfg4.win 1).blk t).view.emb (ix2 e q) = ix2 e q := by
    intro e; funext a; apply Fin.ext
    match a with
    | ⟨0, _⟩ => show win4_1.index t (0 : Fin 2) * 128 + 1 * e.val = e.val; omega
    | ⟨1, _⟩ => show win4_1.index t (1 : Fin 2) * 64 + 1 * q.val = q.val; omega
  have h2 : ((cfg4.win 2).blk t).view.emb (ix2 (0 : Fin 1) q) = ix2 (0 : Fin 1) q := by
    funext a; apply Fin.ext
    match a with
    | ⟨0, _⟩ => show win4_2.index t (0 : Fin 2) * 1 + 1 * 0 = 0; omega
    | ⟨1, _⟩ => show win4_2.index t (1 : Fin 2) * 64 + 1 * q.val = q.val; omega
  show _ = layerLast (V c main_v181) (V c main_v8) (V c main_v182) (((cfg4.win 3).blk t).view.emb (ix2 p q))
  rw [h3]
  exact rows_last (V c main_v181) (V c main_v8) (V c main_v182) (iblk4 V c 0 t) (iblk4 V c 1 t) (iblk4 V c 2 t)
    ⟨t.val * 8000 + p.val, hrow⟩ p q (fun e => congrArg (V c main_v181) (h0 e)) (fun e => congrArg (V c main_v8) (h1 e)) (congrArg (V c main_v182) h2)

/-- An index of the output array is in point t's block iff each coordinate is in the block's range on its axis. -/
theorem mem_rows (t : Fin cfg4.N) (i : S320000x64.Idx) :
    i ∈ ((cfg4.win 3).blk t).view.set ↔ ∀ a : Fin 2, win4_3.index t a * S8000x64.size a ≤ (i a).val
      ∧ (i a).val < win4_3.index t a * S8000x64.size a + S8000x64.size a := by
  show i ∈ ((View.whole main_v183).slice (win4_3.rect t)).set ↔ _
  rw [View.set_slice_whole, Rect.mem_set_unit]
  exact Iff.rfl

/-- Row r of the output lies in the block of point r / 8000. -/
theorem rows_cover (i : S320000x64.Idx) :
    ∃ t : Fin cfg4.N, (cfg4.win 3).flush t = true ∧ i ∈ ((cfg4.win 3).blk t).view.set := by
  have hi0 : (i 0).val < 320000 := (i 0).isLt
  have hi1 : (i 1).val < 64 := (i 1).isLt
  have hN : grid4.N = 40 := N_4
  have hlt : (i 0).val / 8000 < cfg4.N := by show _ < grid4.N; omega
  obtain ⟨-, -, -, -, -, -, e6, e7⟩ := block_indices ⟨(i 0).val / 8000, hlt⟩
  refine ⟨⟨(i 0).val / 8000, hlt⟩, flush4_3 _, ?_⟩
  rw [mem_rows]
  intro a
  match a with
  | ⟨0, _⟩ =>
    show win4_3.index ⟨(i 0).val / 8000, hlt⟩ (0 : Fin 2) * 8000 ≤ (i 0).val
      ∧ (i 0).val < win4_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win4_3.index ⟨(i 0).val / 8000, hlt⟩ (1 : Fin 2) * 64 ≤ (i 1).val
      ∧ (i 1).val < win4_3.index ⟨(i 0).val / 8000, hlt⟩ (1 : Fin 2) * 64 + 64
    rw [e7]; omega

/-- THE REGION'S VALUE: its output array ends holding the last dense layer of the three arrays it reads, as
    the region finds them. -/
theorem output (c : Dev nD) :
    (dat4 V c).arrAt 3 cfg4.N = layerLast (V c main_v181) (V c main_v8) (V c main_v182) :=
  (dat4 V c).arrAt_eq_of_cover 3 _ (fun t _ => flushed_rows V c t) rows_cover

end Cert.KernelIdeal.Region4

end
-- ==== Proof.Net.lean ====
/-
  The network both programs compute, as one function of the thirteen arguments.

  Between two dense layers both programs run the same host operations on the edge array h, the edges' endpoints
  (src, dst : an i32 per edge) and the nodes' in-degrees: sum the edges' rows into their target nodes and divide each
  node's row by its in-degree; read every edge's source node (a negative index counting from the end), and sum those
  rows into the target nodes again; then average, per edge, the rows of its source and of its target node. The
  in-degree is the sum of ones over the edges into each node. The operations are kept as they are printed and never
  opened: both programs apply the very same ones, so only their order of composition matters here.

  A layer's value is the dense layer (Dense.lean) of that mixed array, of the transposed weights and of the bias laid
  out as a row; the network is five layers, the last one without the cut-off and with 64 columns.
-/
import proofs.«145168_j27986006901493_2_alg».proof.Proof.Dense

noncomputable section

namespace Cert.KernelIdeal.Net

open Idealize.ShloMosaic Cert.KernelIdeal Cert.KernelIdeal.Facts₀ Cert.KernelIdeal.Dense

abbrev Edges : Type := FVec Ideal S320000x128 .f32
abbrev Ends : Type := IVec S320000 32
abbrev Degrees : Type := FVec Ideal S10000 .f32
abbrev Nodes : Type := FVec Ideal S10000x128 .f32

/-- The number of edges into each node: ones summed into their target nodes. -/
def degree (dst : Ends) : Degrees :=
  Host.scatterAdd (F := Ideal) scatter_S10000_S320000x1_S320000_n_0_0_1
    (broadcastInDim S10000 ![] bcast_S_S10000 (constant (F := Ideal) S_ .f32 0x00000000#32))
    (broadcastInDim S320000x1 ![0] bcast_S320000_S320000x1_0 dst)
    (broadcastInDim S320000 ![] bcast_S_S320000 (constant (F := Ideal) S_ .f32 0x3F800000#32))

/-- An endpoint index with the negative ones counted from the end, as a column of start indices. -/
def column (e : Ends) : IVec S320000x1 32 :=
  broadcastInDim S320000x1 ![0] bcast_S320000_S320000x1_0
    (select (cmpi .slt e (broadcastInDim S320000 ![] bcast_S_S320000 (constantI S_ 32 0#32)))
      (addi e (broadcastInDim S320000 ![] bcast_S_S320000 (constantI S_ 32 10000#32))) e)

/-- Edge rows summed into their target nodes. -/
def toNodes (dst : Ends) (h : Edges) : Nodes :=
  Host.scatterAdd (F := Ideal) scatter_S10000x128_S320000x1_S320000x128_1_0_0_1
    (broadcastInDim S10000x128 ![] bcast_S_S10000x128 (constant (F := Ideal) S_ .f32 0x00000000#32))
    (broadcastInDim S320000x1 ![0] bcast_S320000_S320000x1_0 dst) h

/-- Node rows read at an endpoint of every edge. -/
def atEnds (n : Nodes) (e : Ends) : Edges :=
  Host.gather gather_S10000x128_S320000x1_S320000x128_1_0_n_n_0_1_1128 n (column e)

/-- The node features after the two rounds of message passing. -/
def nodes (deg : Degrees) (src dst : Ends) (h : Edges) : Nodes :=
  toNodes dst (atEnds (Host.divf (F := Ideal) (toNodes dst h)
    (broadcastInDim S10000x128 ![0, 1] bcast_S10000x1_S10000x128_0_1 (broadcastInDim S10000x1 ![0] bcast_S10000_S10000x1_0 deg))) src)

/-- The stretch between two dense layers: the mean of the two endpoint rows of every edge. -/
def mix (deg : Degrees) (src dst : Ends) (h : Edges) : Edges :=
  mulf (F := Ideal) (addf (F := Ideal) (atEnds (nodes deg src dst h) src) (atEnds (nodes deg src dst h) dst))
    (broadcastInDim S320000x128 ![] bcast_S_S320000x128 (constant (F := Ideal) S_ .f32 0x3F000000#32))

abbrev Weights : Type := FVec Ideal S128x128 .f32
abbrev Bias : Type := FVec Ideal S128 .f32

/-- One rectified layer: mix, then the dense layer at the transposed weights and the bias row. -/
def layer (deg : Degrees) (src dst : Ends) (h : Edges) (W : Weights) (b : Bias) : Edges :=
  layerRelu (mix deg src dst h) (transpose S128x128 [1, 0] W transposes_S128x128_S128x128_1_0) (shapeCast S1x128 b shapeCasts_S128_S1x128)

/-- The whole network. -/
def net (a0 : Edges) (a1 a2 : Ends) (a3 : Weights) (a4 : Bias) (a5 : Weights) (a6 : Bias) (a7 : Weights) (a8 : Bias)
    (a9 : Weights) (a10 : Bias) (a11 : FVec Ideal S64x128 .f32) (a12 : FVec Ideal S64 .f32) :
    FVec Ideal S320000x64 .f32 :=
  layerLast
    (mix (degree a2) a1 a2
      (layer (degree a2) a1 a2 (layer (degree a2) a1 a2 (layer (degree a2) a1 a2 (layer (degree a2) a1 a2 a0 a3 a4) a5 a6) a7 a8) a9 a10))
    (transpose S128x64 [1, 0] a11 transposes_S64x128_S128x64_1_0) (shapeCast S1x64 a12 shapeCasts_S64_S1x64)

end Cert.KernelIdeal.Net

end
-- ==== Proof.Stretch0.lean ====
/-
  The host operations before the first region, read at the buffers the regions and the later stretches use.

  From the contents v of the buffers at launch they leave: the in-degree of every node; each of the five weight matrices
  transposed; the first layer's bias as a row; and the first region's input, the argument edge array mixed once. The
  argument arrays the later stretches read are not written.
-/
import proofs.«145168_j27986006901493_2_alg».proof.Proof.Gen.KernelIdeal.Launch
import proofs.«145168_j27986006901493_2_alg».proof.Proof.Net
import Idealize.ShloMosaic.Lib.StableHlo.Run

set_option maxRecDepth 16384

noncomputable section

namespace Cert.KernelIdeal.Stretch0

open Idealize.ShloMosaic Idealize.ShloMosaic.TcCoe Idealize.SL.Sem Idealize.ShloMosaic.StableHlo
open Cert.KernelIdeal Cert.KernelIdeal.Gen Cert.KernelIdeal.Net

variable (v : Valuation τ sig (Elt Ideal))

/-- The nodes' in-degrees. -/
theorem degree_eq : StableHlo.after (hostOps0 (F := Ideal)) v (Proc.devRef .tc main_v3) = degree (v (Proc.devRef .tc main_arg2)) := by
  after_results_simp <;> rfl

set_option maxHeartbeats 4000000 in
/-- The first region's input: the argument edge array mixed once. -/
theorem input_eq : StableHlo.after (hostOps0 (F := Ideal)) v (Proc.devRef .tc main_v41)
    = mix (degree (v (Proc.devRef .tc main_arg2))) (v (Proc.devRef .tc main_arg1)) (v (Proc.devRef .tc main_arg2)) (v (Proc.devRef .tc main_arg0)) := by
  after_results_simp <;> rfl

/-- The first layer's bias as a row. -/
theorem bias_eq : StableHlo.after (hostOps0 (F := Ideal)) v (Proc.devRef .tc main_v42)
    = shapeCast S1x128 (v (Proc.devRef .tc main_arg4)) Facts₀.shapeCasts_S128_S1x128 := by
  after_results_simp <;> rfl

/-- `main_arg3` transposed. -/
theorem weights_main_v4 : StableHlo.after (hostOps0 (F := Ideal)) v (Proc.devRef .tc main_v4)
    = transpose S128x128 [1, 0] (v (Proc.devRef .tc main_arg3)) Facts₀.transposes_S128x128_S128x128_1_0 := by
  after_results_simp <;> rfl

/-- `main_arg5` transposed. -/
theorem weights_main_v5 : StableHlo.after (hostOps0 (F := Ideal)) v (Proc.devRef .tc main_v5)
    = transpose S128x128 [1, 0] (v (Proc.devRef .tc main_arg5)) Facts₀.transposes_S128x128_S128x128_1_0 := by
  after_results_simp <;> rfl

/-- `main_arg7` transposed. -/
theorem weights_main_v6 : StableHlo.after (hostOps0 (F := Ideal)) v (Proc.devRef .tc main_v6)
    = transpose S128x128 [1, 0] (v (Proc.devRef .tc main_arg7)) Facts₀.transposes_S128x128_S128x128_1_0 := by
  after_results_simp <;> rfl

/-- `main_arg9` transposed. -/
theorem weights_main_v7 : StableHlo.after (hostOps0 (F := Ideal)) v (Proc.devRef .tc main_v7)
    = transpose S128x128 [1, 0] (v (Proc.devRef .tc main_arg9)) Facts₀.transposes_S128x128_S128x128_1_0 := by
  after_results_simp <;> rfl

/-- The last layer's weights transposed. -/
theorem weights_main_v8 : StableHlo.after (hostOps0 (F := Ideal)) v (Proc.devRef .tc main_v8)
    = transpose S128x64 [1, 0] (v (Proc.devRef .tc main_arg11)) Facts₀.transposes_S64x128_S128x64_1_0 := by
  after_results_simp <;> rfl

/-- No operation of the stretch writes `main_arg1`. -/
theorem keep_main_arg1 : StableHlo.after (hostOps0 (F := Ideal)) v (Proc.devRef .tc main_arg1) = v (Proc.devRef .tc main_arg1) := by
  after_results_simp

/-- No operation of the stretch writes `main_arg2`. -/
theorem keep_main_arg2 : StableHlo.after (hostOps0 (F := Ideal)) v (Proc.devRef .tc main_arg2) = v (Proc.devRef .tc main_arg2) := by
  after_results_simp

/-- No operation of the stretch writes `main_arg6`. -/
theorem keep_main_arg6 : StableHlo.after (hostOps0 (F := Ideal)) v (Proc.devRef .tc main_arg6) = v (Proc.devRef .tc main_arg6) := by
  after_results_simp

/-- No operation of the stretch writes `main_arg8`. -/
theorem keep_main_arg8 : StableHlo.after (hostOps0 (F := Ideal)) v (Proc.devRef .tc main_arg8) = v (Proc.devRef .tc main_arg8) := by
  after_results_simp

/-- No operation of the stretch writes `main_arg10`. -/
theorem keep_main_arg10 : StableHlo.after (hostOps0 (F := Ideal)) v (Proc.devRef .tc main_arg10) = v (Proc.devRef .tc main_arg10) := by
  after_results_simp

/-- No operation of the stretch writes `main_arg12`. -/
theorem keep_main_arg12 : StableHlo.after (hostOps0 (F := Ideal)) v (Proc.devRef .tc main_arg12) = v (Proc.devRef .tc main_arg12) := by
  after_results_simp

end Cert.KernelIdeal.Stretch0

end
-- ==== Proof.Stretch1.lean ====
/-
  The host operations between region 0 and region 1, read at the buffers region 1 and the later stretches use.

  From the contents v of the buffers when region 0 has ended they leave region 1's input — region 0's output mixed
  once, with the in-degrees and the endpoints as v holds them — and layer 2's bias as a row; the buffers the later
  stretches and regions read are not written.
-/
import proofs.«145168_j27986006901493_2_alg».proof.Proof.Gen.KernelIdeal.Launch
import proofs.«145168_j27986006901493_2_alg».proof.Proof.Net
import Idealize.ShloMosaic.Lib.StableHlo.Run

set_option maxRecDepth 16384

noncomputable section

namespace Cert.KernelIdeal.Stretch1

open Idealize.ShloMosaic Idealize.ShloMosaic.TcCoe Idealize.SL.Sem Idealize.ShloMosaic.StableHlo
open Cert.KernelIdeal Cert.KernelIdeal.Gen Cert.KernelIdeal.Net

variable (v : Valuation τ sig (Elt Ideal))

set_option maxHeartbeats 4000000 in
/-- Region 1's input: region 0's output mixed once. -/
theorem input_eq : StableHlo.after (hostOps1 (F := Ideal)) v (Proc.devRef .tc main_v76)
    = mix (v (Proc.devRef .tc main_v3)) (v (Proc.devRef .tc main_arg1)) (v (Proc.devRef .tc main_arg2)) (v (Proc.devRef .tc main_v43)) := by
  after_results_simp <;> rfl

/-- Layer 2's bias as a row. -/
theorem bias_eq : StableHlo.after (hostOps1 (F := Ideal)) v (Proc.devRef .tc main_v77)
    = shapeCast S1x128 (v (Proc.devRef .tc main_arg6)) Facts₀.shapeCasts_S128_S1x128 := by
  after_results_simp <;> rfl

/-- No operation of the stretch writes `main_arg1`. -/
theorem keep_main_arg1 : StableHlo.after (hostOps1 (F := Ideal)) v (Proc.devRef .tc main_arg1) = v (Proc.devRef .tc main_arg1) := by
  after_results_simp

/-- No operation of the stretch writes `main_arg2`. -/
theorem keep_main_arg2 : StableHlo.after (hostOps1 (F := Ideal)) v (Proc.devRef .tc main_arg2) = v (Proc.devRef .tc main_arg2) := by
  after_results_simp

/-- No operation of the stretch writes `main_v3`. -/
theorem keep_main_v3 : StableHlo.after (hostOps1 (F := Ideal)) v (Proc.devRef .tc main_v3) = v (Proc.devRef .tc main_v3) := by
  after_results_simp

/-- No operation of the stretch writes `main_arg8`. -/
theorem keep_main_arg8 : StableHlo.after (hostOps1 (F := Ideal)) v (Proc.devRef .tc main_arg8) = v (Proc.devRef .tc main_arg8) := by
  after_results_simp

/-- No operation of the stretch writes `main_arg10`. -/
theorem keep_main_arg10 : StableHlo.after (hostOps1 (F := Ideal)) v (Proc.devRef .tc main_arg10) = v (Proc.devRef .tc main_arg10) := by
  after_results_simp

/-- No operation of the stretch writes `main_arg12`. -/
theorem keep_main_arg12 : StableHlo.after (hostOps1 (F := Ideal)) v (Proc.devRef .tc main_arg12) = v (Proc.devRef .tc main_arg12) := by
  after_results_simp

/-- No operation of the stretch writes `main_v5`. -/
theorem keep_main_v5 : StableHlo.after (hostOps1 (F := Ideal)) v (Proc.devRef .tc main_v5) = v (Proc.devRef .tc main_v5) := by
  after_results_simp

/-- No operation of the stretch writes `main_v6`. -/
theorem keep_main_v6 : StableHlo.after (hostOps1 (F := Ideal)) v (Proc.devRef .tc main_v6) = v (Proc.devRef .tc main_v6) := by
  after_results_simp

/-- No operation of the stretch writes `main_v7`. -/
theorem keep_main_v7 : StableHlo.after (hostOps1 (F := Ideal)) v (Proc.devRef .tc main_v7) = v (Proc.devRef .tc main_v7) := by
  after_results_simp

/-- No operation of the stretch writes `main_v8`. -/
theorem keep_main_v8 : StableHlo.after (hostOps1 (F := Ideal)) v (Proc.devRef .tc main_v8) = v (Proc.devRef .tc main_v8) := by
  after_results_simp

end Cert.KernelIdeal.Stretch1

end
-- ==== Proof.Stretch2.lean ====
/-
  The host operations between region 1 and region 2, read at the buffers region 2 and the later stretches use.

  From the contents v of the buffers when region 1 has ended they leave region 2's input — region 1's output mixed
  once, with the in-degrees and the endpoints as v holds them — and layer 3's bias as a row; the buffers the later
  stretches and regions read are not written.
-/
import proofs.«145168_j27986006901493_2_alg».proof.Proof.Gen.KernelIdeal.Launch
import proofs.«145168_j27986006901493_2_alg».proof.Proof.Net
import Idealize.ShloMosaic.Lib.StableHlo.Run

set_option maxRecDepth 16384

noncomputable section

namespace Cert.KernelIdeal.Stretch2

open Idealize.ShloMosaic Idealize.ShloMosaic.TcCoe Idealize.SL.Sem Idealize.ShloMosaic.StableHlo
open Cert.KernelIdeal Cert.KernelIdeal.Gen Cert.KernelIdeal.Net

variable (v : Valuation τ sig (Elt Ideal))

set_option maxHeartbeats 4000000 in
/-- Region 2's input: region 1's output mixed once. -/
theorem input_eq : StableHlo.after (hostOps2 (F := Ideal)) v (Proc.devRef .tc main_v111)
    = mix (v (Proc.devRef .tc main_v3)) (v (Proc.devRef .tc main_arg1)) (v (Proc.devRef .tc main_arg2)) (v (Proc.devRef .tc main_v78)) := by
  after_results_simp <;> rfl

/-- Layer 3's bias as a row. -/
theorem bias_eq : StableHlo.after (hostOps2 (F := Ideal)) v (Proc.devRef .tc main_v112)
    = shapeCast S1x128 (v (Proc.devRef .tc main_arg8)) Facts₀.shapeCasts_S128_S1x128 := by
  after_results_simp <;> rfl

/-- No operation of the stretch writes `main_arg1`. -/
theorem keep_main_arg1 : StableHlo.after (hostOps2 (F := Ideal)) v (Proc.devRef .tc main_arg1) = v (Proc.devRef .tc main_arg1) := by
  after_results_simp

/-- No operation of the stretch writes `main_arg2`. -/
theorem keep_main_arg2 : StableHlo.after (hostOps2 (F := Ideal)) v (Proc.devRef .tc main_arg2) = v (Proc.devRef .tc main_arg2) := by
  after_results_simp

/-- No operation of the stretch writes `main_v3`. -/
theorem keep_main_v3 : StableHlo.after (hostOps2 (F := Ideal)) v (Proc.devRef .tc main_v3) = v (Proc.devRef .tc main_v3) := by
  after_results_simp

/-- No operation of the stretch writes `main_arg10`. -/
theorem keep_main_arg10 : StableHlo.after (hostOps2 (F := Ideal)) v (Proc.devRef .tc main_arg10) = v (Proc.devRef .tc main_arg10) := by
  after_results_simp

/-- No operation of the stretch writes `main_arg12`. -/
theorem keep_main_arg12 : StableHlo.after (hostOps2 (F := Ideal)) v (Proc.devRef .tc main_arg12) = v (Proc.devRef .tc main_arg12) := by
  after_results_simp

/-- No operation of the stretch writes `main_v6`. -/
theorem keep_main_v6 : StableHlo.after (hostOps2 (F := Ideal)) v (Proc.devRef .tc main_v6) = v (Proc.devRef .tc main_v6) := by
  after_results_simp

/-- No operation of the stretch writes `main_v7`. -/
theorem keep_main_v7 : StableHlo.after (hostOps2 (F := Ideal)) v (Proc.devRef .tc main_v7) = v (Proc.devRef .tc main_v7) := by
  after_results_simp

/-- No operation of the stretch writes `main_v8`. -/
theorem keep_main_v8 : StableHlo.after (hostOps2 (F := Ideal)) v (Proc.devRef .tc main_v8) = v (Proc.devRef .tc main_v8) := by
  after_results_simp

end Cert.KernelIdeal.Stretch2

end
-- ==== Proof.Stretch3.lean ====
/-
  The host operations between region 2 and region 3, read at the buffers region 3 and the later stretches use.

  From the contents v of the buffers when region 2 has ended they leave region 3's input — region 2's output mixed
  once, with the in-degrees and the endpoints as v holds them — and layer 4's bias as a row; the buffers the later
  stretches and regions read are not written.
-/
import proofs.«145168_j27986006901493_2_alg».proof.Proof.Gen.KernelIdeal.Launch
import proofs.«145168_j27986006901493_2_alg».proof.Proof.Net
import Idealize.ShloMosaic.Lib.StableHlo.Run

set_option maxRecDepth 16384

noncomputable section

namespace Cert.KernelIdeal.Stretch3

open Idealize.ShloMosaic Idealize.ShloMosaic.TcCoe Idealize.SL.Sem Idealize.ShloMosaic.StableHlo
open Cert.KernelIdeal Cert.KernelIdeal.Gen Cert.KernelIdeal.Net

variable (v : Valuation τ sig (Elt Ideal))

set_option maxHeartbeats 4000000 in
/-- Region 3's input: region 2's output mixed once. -/
theorem input_eq : StableHlo.after (hostOps3 (F := Ideal)) v (Proc.devRef .tc main_v146)
    = mix (v (Proc.devRef .tc main_v3)) (v (Proc.devRef .tc main_arg1)) (v (Proc.devRef .tc main_arg2)) (v (Proc.devRef .tc main_v113)) := by
  after_results_simp <;> rfl

/-- Layer 4's bias as a row. -/
theorem bias_eq : StableHlo.after (hostOps3 (F := Ideal)) v (Proc.devRef .tc main_v147)
    = shapeCast S1x128 (v (Proc.devRef .tc main_arg10)) Facts₀.shapeCasts_S128_S1x128 := by
  after_results_simp <;> rfl

/-- No operation of the stretch writes `main_arg1`. -/
theorem keep_main_arg1 : StableHlo.after (hostOps3 (F := Ideal)) v (Proc.devRef .tc main_arg1) = v (Proc.devRef .tc main_arg1) := by
  after_results_simp

/-- No operation of the stretch writes `main_arg2`. -/
theorem keep_main_arg2 : StableHlo.after (hostOps3 (F := Ideal)) v (Proc.devRef .tc main_arg2) = v (Proc.devRef .tc main_arg2) := by
  after_results_simp

/-- No operation of the stretch writes `main_v3`. -/
theorem keep_main_v3 : StableHlo.after (hostOps3 (F := Ideal)) v (Proc.devRef .tc main_v3) = v (Proc.devRef .tc main_v3) := by
  after_results_simp

/-- No operation of the stretch writes `main_arg12`. -/
theorem keep_main_arg12 : StableHlo.after (hostOps3 (F := Ideal)) v (Proc.devRef .tc main_arg12) = v (Proc.devRef .tc main_arg12) := by
  after_results_simp

/-- No operation of the stretch writes `main_v7`. -/
theorem keep_main_v7 : StableHlo.after (hostOps3 (F := Ideal)) v (Proc.devRef .tc main_v7) = v (Proc.devRef .tc main_v7) := by
  after_results_simp

/-- No operation of the stretch writes `main_v8`. -/
theorem keep_main_v8 : StableHlo.after (hostOps3 (F := Ideal)) v (Proc.devRef .tc main_v8) = v (Proc.devRef .tc main_v8) := by
  after_results_simp

end Cert.KernelIdeal.Stretch3

end
-- ==== Proof.Stretch4.lean ====
/-
  The host operations between region 3 and region 4, read at the buffers region 4 and the later stretches use.

  From the contents v of the buffers when region 3 has ended they leave region 4's input — region 3's output mixed
  once, with the in-degrees and the endpoints as v holds them — and layer 5's bias as a row; the buffers the later
  stretches and regions read are not written.
-/
import proofs.«145168_j27986006901493_2_alg».proof.Proof.Gen.KernelIdeal.Launch
import proofs.«145168_j27986006901493_2_alg».proof.Proof.Net
import Idealize.ShloMosaic.Lib.StableHlo.Run

set_option maxRecDepth 16384

noncomputable section

namespace Cert.KernelIdeal.Stretch4

open Idealize.ShloMosaic Idealize.ShloMosaic.TcCoe Idealize.SL.Sem Idealize.ShloMosaic.StableHlo
open Cert.KernelIdeal Cert.KernelIdeal.Gen Cert.KernelIdeal.Net

variable (v : Valuation τ sig (Elt Ideal))

set_option maxHeartbeats 4000000 in
/-- Region 4's input: region 3's output mixed once. -/
theorem input_eq : StableHlo.after (hostOps4 (F := Ideal)) v (Proc.devRef .tc main_v181)
    = mix (v (Proc.devRef .tc main_v3)) (v (Proc.devRef .tc main_arg1)) (v (Proc.devRef .tc main_arg2)) (v (Proc.devRef .tc main_v148)) := by
  after_results_simp <;> rfl

/-- Layer 5's bias as a row. -/
theorem bias_eq : StableHlo.after (hostOps4 (F := Ideal)) v (Proc.devRef .tc main_v182)
    = shapeCast S1x64 (v (Proc.devRef .tc main_arg12)) Facts₀.shapeCasts_S64_S1x64 := by
  after_results_simp <;> rfl

/-- No operation of the stretch writes `main_v8`. -/
theorem keep_main_v8 : StableHlo.after (hostOps4 (F := Ideal)) v (Proc.devRef .tc main_v8) = v (Proc.devRef .tc main_v8) := by
  after_results_simp

end Cert.KernelIdeal.Stretch4

end
-- ==== Proof.Walk.lean ====
/-
  The fold of buffer contents through the kernel's @main, read at the result.

  The contents at each boundary are: after a stretch of host operations, those operations applied to the contents
  before; after a region, the region's arrays at what its write-backs leave and every other buffer as it was. Walking
  the fold from the launch memory: the in-degrees, the transposed weight matrices and the argument arrays a later
  stretch reads are written once (or never) and then left alone by every stretch and every region before their last
  use, so they hold one value throughout; each region's input is the previous region's output mixed once (the first
  one's: the argument edge array mixed once); and each region's output is the dense layer of its three arrays. So the
  result array ends holding the five-layer network of the arguments.
-/
import proofs.«145168_j27986006901493_2_alg».proof.Proof.KernelRun
import proofs.«145168_j27986006901493_2_alg».proof.Proof.Region0
import proofs.«145168_j27986006901493_2_alg».proof.Proof.Region1
import proofs.«145168_j27986006901493_2_alg».proof.Proof.Region2
import proofs.«145168_j27986006901493_2_alg».proof.Proof.Region3
import proofs.«145168_j27986006901493_2_alg».proof.Proof.Region4
import proofs.«145168_j27986006901493_2_alg».proof.Proof.Stretch0
import proofs.«145168_j27986006901493_2_alg».proof.Proof.Stretch1
import proofs.«145168_j27986006901493_2_alg».proof.Proof.Stretch2
import proofs.«145168_j27986006901493_2_alg».proof.Proof.Stretch3
import proofs.«145168_j27986006901493_2_alg».proof.Proof.Stretch4

set_option maxRecDepth 16384

noncomputable section

namespace Cert.KernelIdeal.Walk

open Idealize.ShloMosaic Idealize.ShloMosaic.TcCoe Idealize.SL.Sem
open Cert.KernelIdeal Cert.KernelIdeal.Gen Cert.KernelIdeal.Dense Cert.KernelIdeal.Net

variable (m : (ℓ : Loc nD τ sig) → Buf (Elt Ideal) ℓ) (ρ : Dev nD → PrngReg) (c : Dev nD)

/-! ## Buffers that hold one value from the first stretch to their last use -/
theorem at1_main_arg1 : W1 m ρ c (Proc.devRef .tc main_arg1) = (m ((c : Thread nD τ).loc main_arg1)) :=
  Stretch0.keep_main_arg1 (W0 m ρ c)
theorem at2_main_arg1 : W2 m ρ c (Proc.devRef .tc main_arg1) = (m ((c : Thread nD τ).loc main_arg1)) :=
  (W2_of_ne m ρ c main_arg1 (by decide)).trans (at1_main_arg1 m ρ c)
theorem at3_main_arg1 : W3 m ρ c (Proc.devRef .tc main_arg1) = (m ((c : Thread nD τ).loc main_arg1)) :=
  (Stretch1.keep_main_arg1 (W2 m ρ c)).trans (at2_main_arg1 m ρ c)
theorem at4_main_arg1 : W4 m ρ c (Proc.devRef .tc main_arg1) = (m ((c : Thread nD τ).loc main_arg1)) :=
  (W4_of_ne m ρ c main_arg1 (by decide)).trans (at3_main_arg1 m ρ c)
theorem at5_main_arg1 : W5 m ρ c (Proc.devRef .tc main_arg1) = (m ((c : Thread nD τ).loc main_arg1)) :=
  (Stretch2.keep_main_arg1 (W4 m ρ c)).trans (at4_main_arg1 m ρ c)
theorem at6_main_arg1 : W6 m ρ c (Proc.devRef .tc main_arg1) = (m ((c : Thread nD τ).loc main_arg1)) :=
  (W6_of_ne m ρ c main_arg1 (by decide)).trans (at5_main_arg1 m ρ c)
theorem at7_main_arg1 : W7 m ρ c (Proc.devRef .tc main_arg1) = (m ((c : Thread nD τ).loc main_arg1)) :=
  (Stretch3.keep_main_arg1 (W6 m ρ c)).trans (at6_main_arg1 m ρ c)
theorem at8_main_arg1 : W8 m ρ c (Proc.devRef .tc main_arg1) = (m ((c : Thread nD τ).loc main_arg1)) :=
  (W8_of_ne m ρ c main_arg1 (by decide)).trans (at7_main_arg1 m ρ c)
theorem at1_main_arg2 : W1 m ρ c (Proc.devRef .tc main_arg2) = (m ((c : Thread nD τ).loc main_arg2)) :=
  Stretch0.keep_main_arg2 (W0 m ρ c)
theorem at2_main_arg2 : W2 m ρ c (Proc.devRef .tc main_arg2) = (m ((c : Thread nD τ).loc main_arg2)) :=
  (W2_of_ne m ρ c main_arg2 (by decide)).trans (at1_main_arg2 m ρ c)
theorem at3_main_arg2 : W3 m ρ c (Proc.devRef .tc main_arg2) = (m ((c : Thread nD τ).loc main_arg2)) :=
  (Stretch1.keep_main_arg2 (W2 m ρ c)).trans (at2_main_arg2 m ρ c)
theorem at4_main_arg2 : W4 m ρ c (Proc.devRef .tc main_arg2) = (m ((c : Thread nD τ).loc main_arg2)) :=
  (W4_of_ne m ρ c main_arg2 (by decide)).trans (at3_main_arg2 m ρ c)
theorem at5_main_arg2 : W5 m ρ c (Proc.devRef .tc main_arg2) = (m ((c : Thread nD τ).loc main_arg2)) :=
  (Stretch2.keep_main_arg2 (W4 m ρ c)).trans (at4_main_arg2 m ρ c)
theorem at6_main_arg2 : W6 m ρ c (Proc.devRef .tc main_arg2) = (m ((c : Thread nD τ).loc main_arg2)) :=
  (W6_of_ne m ρ c main_arg2 (by decide)).trans (at5_main_arg2 m ρ c)
theorem at7_main_arg2 : W7 m ρ c (Proc.devRef .tc main_arg2) = (m ((c : Thread nD τ).loc main_arg2)) :=
  (Stretch3.keep_main_arg2 (W6 m ρ c)).trans (at6_main_arg2 m ρ c)
theorem at8_main_arg2 : W8 m ρ c (Proc.devRef .tc main_arg2) = (m ((c : Thread nD τ).loc main_arg2)) :=
  (W8_of_ne m ρ c main_arg2 (by decide)).trans (at7_main_arg2 m ρ c)
theorem at1_main_arg6 : W1 m ρ c (Proc.devRef .tc main_arg6) = (m ((c : Thread nD τ).loc main_arg6)) :=
  Stretch0.keep_main_arg6 (W0 m ρ c)
theorem at2_main_arg6 : W2 m ρ c (Proc.devRef .tc main_arg6) = (m ((c : Thread nD τ).loc main_arg6)) :=
  (W2_of_ne m ρ c main_arg6 (by decide)).trans (at1_main_arg6 m ρ c)
theorem at1_main_arg8 : W1 m ρ c (Proc.devRef .tc main_arg8) = (m ((c : Thread nD τ).loc main_arg8)) :=
  Stretch0.keep_main_arg8 (W0 m ρ c)
theorem at2_main_arg8 : W2 m ρ c (Proc.devRef .tc main_arg8) = (m ((c : Thread nD τ).loc main_arg8)) :=
  (W2_of_ne m ρ c main_arg8 (by decide)).trans (at1_main_arg8 m ρ c)
theorem at3_main_arg8 : W3 m ρ c (Proc.devRef .tc main_arg8) = (m ((c : Thread nD τ).loc main_arg8)) :=
  (Stretch1.keep_main_arg8 (W2 m ρ c)).trans (at2_main_arg8 m ρ c)
theorem at4_main_arg8 : W4 m ρ c (Proc.devRef .tc main_arg8) = (m ((c : Thread nD τ).loc main_arg8)) :=
  (W4_of_ne m ρ c main_arg8 (by decide)).trans (at3_main_arg8 m ρ c)
theorem at1_main_arg10 : W1 m ρ c (Proc.devRef .tc main_arg10) = (m ((c : Thread nD τ).loc main_arg10)) :=
  Stretch0.keep_main_arg10 (W0 m ρ c)
theorem at2_main_arg10 : W2 m ρ c (Proc.devRef .tc main_arg10) = (m ((c : Thread nD τ).loc main_arg10)) :=
  (W2_of_ne m ρ c main_arg10 (by decide)).trans (at1_main_arg10 m ρ c)
theorem at3_main_arg10 : W3 m ρ c (Proc.devRef .tc main_arg10) = (m ((c : Thread nD τ).loc main_arg10)) :=
  (Stretch1.keep_main_arg10 (W2 m ρ c)).trans (at2_main_arg10 m ρ c)
theorem at4_main_arg10 : W4 m ρ c (Proc.devRef .tc main_arg10) = (m ((c : Thread nD τ).loc main_arg10)) :=
  (W4_of_ne m ρ c main_arg10 (by decide)).trans (at3_main_arg10 m ρ c)
theorem at5_main_arg10 : W5 m ρ c (Proc.devRef .tc main_arg10) = (m ((c : Thread nD τ).loc main_arg10)) :=
  (Stretch2.keep_main_arg10 (W4 m ρ c)).trans (at4_main_arg10 m ρ c)
theorem at6_main_arg10 : W6 m ρ c (Proc.devRef .tc main_arg10) = (m ((c : Thread nD τ).loc main_arg10)) :=
  (W6_of_ne m ρ c main_arg10 (by decide)).trans (at5_main_arg10 m ρ c)
theorem at1_main_arg12 : W1 m ρ c (Proc.devRef .tc main_arg12) = (m ((c : Thread nD τ).loc main_arg12)) :=
  Stretch0.keep_main_arg12 (W0 m ρ c)
theorem at2_main_arg12 : W2 m ρ c (Proc.devRef .tc main_arg12) = (m ((c : Thread nD τ).loc main_arg12)) :=
  (W2_of_ne m ρ c main_arg12 (by decide)).trans (at1_main_arg12 m ρ c)
theorem at3_main_arg12 : W3 m ρ c (Proc.devRef .tc main_arg12) = (m ((c : Thread nD τ).loc main_arg12)) :=
  (Stretch1.keep_main_arg12 (W2 m ρ c)).trans (at2_main_arg12 m ρ c)
theorem at4_main_arg12 : W4 m ρ c (Proc.devRef .tc main_arg12) = (m ((c : Thread nD τ).loc main_arg12)) :=
  (W4_of_ne m ρ c main_arg12 (by decide)).trans (at3_main_arg12 m ρ c)
theorem at5_main_arg12 : W5 m ρ c (Proc.devRef .tc main_arg12) = (m ((c : Thread nD τ).loc main_arg12)) :=
  (Stretch2.keep_main_arg12 (W4 m ρ c)).trans (at4_main_arg12 m ρ c)
theorem at6_main_arg12 : W6 m ρ c (Proc.devRef .tc main_arg12) = (m ((c : Thread nD τ).loc main_arg12)) :=
  (W6_of_ne m ρ c main_arg12 (by decide)).trans (at5_main_arg12 m ρ c)
theorem at7_main_arg12 : W7 m ρ c (Proc.devRef .tc main_arg12) = (m ((c : Thread nD τ).loc main_arg12)) :=
  (Stretch3.keep_main_arg12 (W6 m ρ c)).trans (at6_main_arg12 m ρ c)
theorem at8_main_arg12 : W8 m ρ c (Proc.devRef .tc main_arg12) = (m ((c : Thread nD τ).loc main_arg12)) :=
  (W8_of_ne m ρ c main_arg12 (by decide)).trans (at7_main_arg12 m ρ c)
theorem at1_main_v3 : W1 m ρ c (Proc.devRef .tc main_v3) = (degree (m ((c : Thread nD τ).loc main_arg2))) :=
  Stretch0.degree_eq (W0 m ρ c)
theorem at2_main_v3 : W2 m ρ c (Proc.devRef .tc main_v3) = (degree (m ((c : Thread nD τ).loc main_arg2))) :=
  (W2_of_ne m ρ c main_v3 (by decide)).trans (at1_main_v3 m ρ c)
theorem at3_main_v3 : W3 m ρ c (Proc.devRef .tc main_v3) = (degree (m ((c : Thread nD τ).loc main_arg2))) :=
  (Stretch1.keep_main_v3 (W2 m ρ c)).trans (at2_main_v3 m ρ c)
theorem at4_main_v3 : W4 m ρ c (Proc.devRef .tc main_v3) = (degree (m ((c : Thread nD τ).loc main_arg2))) :=
  (W4_of_ne m ρ c main_v3 (by decide)).trans (at3_main_v3 m ρ c)
theorem at5_main_v3 : W5 m ρ c (Proc.devRef .tc main_v3) = (degree (m ((c : Thread nD τ).loc main_arg2))) :=
  (Stretch2.keep_main_v3 (W4 m ρ c)).trans (at4_main_v3 m ρ c)
theorem at6_main_v3 : W6 m ρ c (Proc.devRef .tc main_v3) = (degree (m ((c : Thread nD τ).loc main_arg2))) :=
  (W6_of_ne m ρ c main_v3 (by decide)).trans (at5_main_v3 m ρ c)
theorem at7_main_v3 : W7 m ρ c (Proc.devRef .tc main_v3) = (degree (m ((c : Thread nD τ).loc main_arg2))) :=
  (Stretch3.keep_main_v3 (W6 m ρ c)).trans (at6_main_v3 m ρ c)
theorem at8_main_v3 : W8 m ρ c (Proc.devRef .tc main_v3) = (degree (m ((c : Thread nD τ).loc main_arg2))) :=
  (W8_of_ne m ρ c main_v3 (by decide)).trans (at7_main_v3 m ρ c)
theorem at1_main_v5 : W1 m ρ c (Proc.devRef .tc main_v5) = (transpose S128x128 [1, 0] (m ((c : Thread nD τ).loc main_arg5)) Facts₀.transposes_S128x128_S128x128_1_0) :=
  Stretch0.weights_main_v5 (W0 m ρ c)
theorem at2_main_v5 : W2 m ρ c (Proc.devRef .tc main_v5) = (transpose S128x128 [1, 0] (m ((c : Thread nD τ).loc main_arg5)) Facts₀.transposes_S128x128_S128x128_1_0) :=
  (W2_of_ne m ρ c main_v5 (by decide)).trans (at1_main_v5 m ρ c)
theorem at3_main_v5 : W3 m ρ c (Proc.devRef .tc main_v5) = (transpose S128x128 [1, 0] (m ((c : Thread nD τ).loc main_arg5)) Facts₀.transposes_S128x128_S128x128_1_0) :=
  (Stretch1.keep_main_v5 (W2 m ρ c)).trans (at2_main_v5 m ρ c)
theorem at1_main_v6 : W1 m ρ c (Proc.devRef .tc main_v6) = (transpose S128x128 [1, 0] (m ((c : Thread nD τ).loc main_arg7)) Facts₀.transposes_S128x128_S128x128_1_0) :=
  Stretch0.weights_main_v6 (W0 m ρ c)
theorem at2_main_v6 : W2 m ρ c (Proc.devRef .tc main_v6) = (transpose S128x128 [1, 0] (m ((c : Thread nD τ).loc main_arg7)) Facts₀.transposes_S128x128_S128x128_1_0) :=
  (W2_of_ne m ρ c main_v6 (by decide)).trans (at1_main_v6 m ρ c)
theorem at3_main_v6 : W3 m ρ c (Proc.devRef .tc main_v6) = (transpose S128x128 [1, 0] (m ((c : Thread nD τ).loc main_arg7)) Facts₀.transposes_S128x128_S128x128_1_0) :=
  (Stretch1.keep_main_v6 (W2 m ρ c)).trans (at2_main_v6 m ρ c)
theorem at4_main_v6 : W4 m ρ c (Proc.devRef .tc main_v6) = (transpose S128x128 [1, 0] (m ((c : Thread nD τ).loc main_arg7)) Facts₀.transposes_S128x128_S128x128_1_0) :=
  (W4_of_ne m ρ c main_v6 (by decide)).trans (at3_main_v6 m ρ c)
theorem at5_main_v6 : W5 m ρ c (Proc.devRef .tc main_v6) = (transpose S128x128 [1, 0] (m ((c : Thread nD τ).loc main_arg7)) Facts₀.transposes_S128x128_S128x128_1_0) :=
  (Stretch2.keep_main_v6 (W4 m ρ c)).trans (at4_main_v6 m ρ c)
theorem at1_main_v7 : W1 m ρ c (Proc.devRef .tc main_v7) = (transpose S128x128 [1, 0] (m ((c : Thread nD τ).loc main_arg9)) Facts₀.transposes_S128x128_S128x128_1_0) :=
  Stretch0.weights_main_v7 (W0 m ρ c)
theorem at2_main_v7 : W2 m ρ c (Proc.devRef .tc main_v7) = (transpose S128x128 [1, 0] (m ((c : Thread nD τ).loc main_arg9)) Facts₀.transposes_S128x128_S128x128_1_0) :=
  (W2_of_ne m ρ c main_v7 (by decide)).trans (at1_main_v7 m ρ c)
theorem at3_main_v7 : W3 m ρ c (Proc.devRef .tc main_v7) = (transpose S128x128 [1, 0] (m ((c : Thread nD τ).loc main_arg9)) Facts₀.transposes_S128x128_S128x128_1_0) :=
  (Stretch1.keep_main_v7 (W2 m ρ c)).trans (at2_main_v7 m ρ c)
theorem at4_main_v7 : W4 m ρ c (Proc.devRef .tc main_v7) = (transpose S128x128 [1, 0] (m ((c : Thread nD τ).loc main_arg9)) Facts₀.transposes_S128x128_S128x128_1_0) :=
  (W4_of_ne m ρ c main_v7 (by decide)).trans (at3_main_v7 m ρ c)
theorem at5_main_v7 : W5 m ρ c (Proc.devRef .tc main_v7) = (transpose S128x128 [1, 0] (m ((c : Thread nD τ).loc main_arg9)) Facts₀.transposes_S128x128_S128x128_1_0) :=
  (Stretch2.keep_main_v7 (W4 m ρ c)).trans (at4_main_v7 m ρ c)
theorem at6_main_v7 : W6 m ρ c (Proc.devRef .tc main_v7) = (transpose S128x128 [1, 0] (m ((c : Thread nD τ).loc main_arg9)) Facts₀.transposes_S128x128_S128x128_1_0) :=
  (W6_of_ne m ρ c main_v7 (by decide)).trans (at5_main_v7 m ρ c)
theorem at7_main_v7 : W7 m ρ c (Proc.devRef .tc main_v7) = (transpose S128x128 [1, 0] (m ((c : Thread nD τ).loc main_arg9)) Facts₀.transposes_S128x128_S128x128_1_0) :=
  (Stretch3.keep_main_v7 (W6 m ρ c)).trans (at6_main_v7 m ρ c)
theorem at1_main_v8 : W1 m ρ c (Proc.devRef .tc main_v8) = (transpose S128x64 [1, 0] (m ((c : Thread nD τ).loc main_arg11)) Facts₀.transposes_S64x128_S128x64_1_0) :=
  Stretch0.weights_main_v8 (W0 m ρ c)
theorem at2_main_v8 : W2 m ρ c (Proc.devRef .tc main_v8) = (transpose S128x64 [1, 0] (m ((c : Thread nD τ).loc main_arg11)) Facts₀.transposes_S64x128_S128x64_1_0) :=
  (W2_of_ne m ρ c main_v8 (by decide)).trans (at1_main_v8 m ρ c)
theorem at3_main_v8 : W3 m ρ c (Proc.devRef .tc main_v8) = (transpose S128x64 [1, 0] (m ((c : Thread nD τ).loc main_arg11)) Facts₀.transposes_S64x128_S128x64_1_0) :=
  (Stretch1.keep_main_v8 (W2 m ρ c)).trans (at2_main_v8 m ρ c)
theorem at4_main_v8 : W4 m ρ c (Proc.devRef .tc main_v8) = (transpose S128x64 [1, 0] (m ((c : Thread nD τ).loc main_arg11)) Facts₀.transposes_S64x128_S128x64_1_0) :=
  (W4_of_ne m ρ c main_v8 (by decide)).trans (at3_main_v8 m ρ c)
theorem at5_main_v8 : W5 m ρ c (Proc.devRef .tc main_v8) = (transpose S128x64 [1, 0] (m ((c : Thread nD τ).loc main_arg11)) Facts₀.transposes_S64x128_S128x64_1_0) :=
  (Stretch2.keep_main_v8 (W4 m ρ c)).trans (at4_main_v8 m ρ c)
theorem at6_main_v8 : W6 m ρ c (Proc.devRef .tc main_v8) = (transpose S128x64 [1, 0] (m ((c : Thread nD τ).loc main_arg11)) Facts₀.transposes_S64x128_S128x64_1_0) :=
  (W6_of_ne m ρ c main_v8 (by decide)).trans (at5_main_v8 m ρ c)
theorem at7_main_v8 : W7 m ρ c (Proc.devRef .tc main_v8) = (transpose S128x64 [1, 0] (m ((c : Thread nD τ).loc main_arg11)) Facts₀.transposes_S64x128_S128x64_1_0) :=
  (Stretch3.keep_main_v8 (W6 m ρ c)).trans (at6_main_v8 m ρ c)
theorem at8_main_v8 : W8 m ρ c (Proc.devRef .tc main_v8) = (transpose S128x64 [1, 0] (m ((c : Thread nD τ).loc main_arg11)) Facts₀.transposes_S64x128_S128x64_1_0) :=
  (W8_of_ne m ρ c main_v8 (by decide)).trans (at7_main_v8 m ρ c)
theorem at9_main_v8 : W9 m ρ c (Proc.devRef .tc main_v8) = (transpose S128x64 [1, 0] (m ((c : Thread nD τ).loc main_arg11)) Facts₀.transposes_S64x128_S128x64_1_0) :=
  (Stretch4.keep_main_v8 (W8 m ρ c)).trans (at8_main_v8 m ρ c)

/-! ## The regions' inputs and outputs -/

/-- Region 0's input: the argument edge array mixed once. -/
theorem input0 : W1 m ρ c (Proc.devRef .tc main_v41) = (mix (degree (m ((c : Thread nD τ).loc main_arg2))) (m ((c : Thread nD τ).loc main_arg1)) (m ((c : Thread nD τ).loc main_arg2)) (m ((c : Thread nD τ).loc main_arg0))) :=
  Stretch0.input_eq (W0 m ρ c)
theorem weights0 : W1 m ρ c (Proc.devRef .tc main_v4) = (transpose S128x128 [1, 0] (m ((c : Thread nD τ).loc main_arg3)) Facts₀.transposes_S128x128_S128x128_1_0) :=
  Stretch0.weights_main_v4 (W0 m ρ c)
theorem bias0 : W1 m ρ c (Proc.devRef .tc main_v42) = (shapeCast S1x128 (m ((c : Thread nD τ).loc main_arg4)) Facts₀.shapeCasts_S128_S1x128) :=
  Stretch0.bias_eq (W0 m ρ c)

/-- Region 0's output: layer 1. -/
theorem output0 : W2 m ρ c (Proc.devRef .tc main_v43) = (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4))) := by
  refine (W2_arr m ρ c 3).trans ?_
  refine (Region0.output (V1 m ρ) c).trans ?_
  show layerRelu (W1 m ρ c (Proc.devRef .tc main_v41)) (W1 m ρ c (Proc.devRef .tc main_v4)) (W1 m ρ c (Proc.devRef .tc main_v42)) = _
  rw [input0 m ρ c, weights0 m ρ c, bias0 m ρ c]
  rfl

/-- Region 1's input: region 0's output mixed once. -/
theorem input1 : W3 m ρ c (Proc.devRef .tc main_v76) = (mix (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4)))) := by
  refine (Stretch1.input_eq (W2 m ρ c)).trans ?_
  rw [at2_main_v3 m ρ c, at2_main_arg1 m ρ c, at2_main_arg2 m ρ c, output0 m ρ c]
theorem weights1 : W3 m ρ c (Proc.devRef .tc main_v5) = (transpose S128x128 [1, 0] (m ((c : Thread nD τ).loc main_arg5)) Facts₀.transposes_S128x128_S128x128_1_0) :=
  at3_main_v5 m ρ c
theorem bias1 : W3 m ρ c (Proc.devRef .tc main_v77) = (shapeCast S1x128 (m ((c : Thread nD τ).loc main_arg6)) Facts₀.shapeCasts_S128_S1x128) := by
  refine (Stretch1.bias_eq (W2 m ρ c)).trans ?_
  rw [at2_main_arg6 m ρ c]

/-- Region 1's output: layer 2. -/
theorem output1 : W4 m ρ c (Proc.devRef .tc main_v78) = (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6))) := by
  refine (W4_arr m ρ c 3).trans ?_
  refine (Region1.output (V3 m ρ) c).trans ?_
  show layerRelu (W3 m ρ c (Proc.devRef .tc main_v76)) (W3 m ρ c (Proc.devRef .tc main_v5)) (W3 m ρ c (Proc.devRef .tc main_v77)) = _
  rw [input1 m ρ c, weights1 m ρ c, bias1 m ρ c]
  rfl

/-- Region 2's input: region 1's output mixed once. -/
theorem input2 : W5 m ρ c (Proc.devRef .tc main_v111) = (mix (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6)))) := by
  refine (Stretch2.input_eq (W4 m ρ c)).trans ?_
  rw [at4_main_v3 m ρ c, at4_main_arg1 m ρ c, at4_main_arg2 m ρ c, output1 m ρ c]
theorem weights2 : W5 m ρ c (Proc.devRef .tc main_v6) = (transpose S128x128 [1, 0] (m ((c : Thread nD τ).loc main_arg7)) Facts₀.transposes_S128x128_S128x128_1_0) :=
  at5_main_v6 m ρ c
theorem bias2 : W5 m ρ c (Proc.devRef .tc main_v112) = (shapeCast S1x128 (m ((c : Thread nD τ).loc main_arg8)) Facts₀.shapeCasts_S128_S1x128) := by
  refine (Stretch2.bias_eq (W4 m ρ c)).trans ?_
  rw [at4_main_arg8 m ρ c]

/-- Region 2's output: layer 3. -/
theorem output2 : W6 m ρ c (Proc.devRef .tc main_v113) = (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8))) := by
  refine (W6_arr m ρ c 3).trans ?_
  refine (Region2.output (V5 m ρ) c).trans ?_
  show layerRelu (W5 m ρ c (Proc.devRef .tc main_v111)) (W5 m ρ c (Proc.devRef .tc main_v6)) (W5 m ρ c (Proc.devRef .tc main_v112)) = _
  rw [input2 m ρ c, weights2 m ρ c, bias2 m ρ c]
  rfl

/-- Region 3's input: region 2's output mixed once. -/
theorem input3 : W7 m ρ c (Proc.devRef .tc main_v146) = (mix (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8)))) := by
  refine (Stretch3.input_eq (W6 m ρ c)).trans ?_
  rw [at6_main_v3 m ρ c, at6_main_arg1 m ρ c, at6_main_arg2 m ρ c, output2 m ρ c]
theorem weights3 : W7 m ρ c (Proc.devRef .tc main_v7) = (transpose S128x128 [1, 0] (m ((c : Thread nD τ).loc main_arg9)) Facts₀.transposes_S128x128_S128x128_1_0) :=
  at7_main_v7 m ρ c
theorem bias3 : W7 m ρ c (Proc.devRef .tc main_v147) = (shapeCast S1x128 (m ((c : Thread nD τ).loc main_arg10)) Facts₀.shapeCasts_S128_S1x128) := by
  refine (Stretch3.bias_eq (W6 m ρ c)).trans ?_
  rw [at6_main_arg10 m ρ c]

/-- Region 3's output: layer 4. -/
theorem output3 : W8 m ρ c (Proc.devRef .tc main_v148) = (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8))) (m ((c : Thread nD τ).loc main_arg9)) (m ((c : Thread nD τ).loc main_arg10))) := by
  refine (W8_arr m ρ c 3).trans ?_
  refine (Region3.output (V7 m ρ) c).trans ?_
  show layerRelu (W7 m ρ c (Proc.devRef .tc main_v146)) (W7 m ρ c (Proc.devRef .tc main_v7)) (W7 m ρ c (Proc.devRef .tc main_v147)) = _
  rw [input3 m ρ c, weights3 m ρ c, bias3 m ρ c]
  rfl

/-- Region 4's input: region 3's output mixed once. -/
theorem input4 : W9 m ρ c (Proc.devRef .tc main_v181) = (mix (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (layer (degree (m ((c : Thread nD τ).loc main_arg2))) (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6))) (m ((c : Thread nD τ).loc main_arg7)) (m ((c : Thread nD τ).loc main_arg8))) (m ((c : Thread nD τ).loc main_arg9)) (m ((c : Thread nD τ).loc main_arg10)))) := by
  refine (Stretch4.input_eq (W8 m ρ c)).trans ?_
  rw [at8_main_v3 m ρ c, at8_main_arg1 m ρ c, at8_main_arg2 m ρ c, output3 m ρ c]
theorem weights4 : W9 m ρ c (Proc.devRef .tc main_v8) = (transpose S128x64 [1, 0] (m ((c : Thread nD τ).loc main_arg11)) Facts₀.transposes_S64x128_S128x64_1_0) :=
  at9_main_v8 m ρ c
theorem bias4 : W9 m ρ c (Proc.devRef .tc main_v182) = (shapeCast S1x64 (m ((c : Thread nD τ).loc main_arg12)) Facts₀.shapeCasts_S64_S1x64) := by
  refine (Stretch4.bias_eq (W8 m ρ c)).trans ?_
  rw [at8_main_arg12 m ρ c]

/-- Region 4's output: the network of the arguments. -/
theorem output4 : W10 m ρ c (Proc.devRef .tc main_v183) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W10_arr m ρ c 3).trans ?_
  refine (Region4.output (V9 m ρ) c).trans ?_
  show layerLast (W9 m ρ c (Proc.devRef .tc main_v181)) (W9 m ρ c (Proc.devRef .tc main_v8)) (W9 m ρ c (Proc.devRef .tc main_v182)) = _
  rw [input4 m ρ c, weights4 m ρ c, bias4 m ρ c]
  rfl

/-! ## The kernel's run, with its result the network of the arguments -/

/-- Every weakly fair execution of the idealized kernel terminates without a fault, with the result array at the
    network of the launch contents of the arguments, and the arguments unchanged. -/
theorem run_net : θ_run defs (onTc (τ := τ) (main (F := Ideal))) ⟨m, fun _ => 0, ρ⟩ (fun r => ∀ c : Dev nD,
      r.2.mem ((c.tc : Thread nD τ).loc main_v183) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (output4 m ρ c), (h c).2⟩) (run_with_result m ρ)

end Cert.KernelIdeal.Walk

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«145168_j27986006901493_2_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.RefLayer.lean ====
/-
  The reference's dense layer is the kernel's, array for array.

  The reference transposes the weight matrix, contracts the input's columns against the transposed matrix's rows with
  the host's matrix product, spreads the bias vector first into one row and then over all 320000 rows, adds, and (in
  every layer but the last) takes the maximum with an array of zeros. Read at entry (r, q) that is
  max (∑ₑ X(r,e) · Wᵀ(e,q) + b(q), 0): the layer function the kernel's blocks restrict, at the transposed weights and at
  the bias laid out as a row.
-/
import proofs.«145168_j27986006901493_2_alg».proof.Proof.Gen.ReferenceIdeal
import proofs.«145168_j27986006901493_2_alg».proof.Proof.Dense
import proofs.«145168_j27986006901493_2_alg».proof.Proof.LibDotNN
import proofs.«145168_j27986006901493_2_alg».proof.Proof.LibBroadcastInDim
import proofs.«145168_j27986006901493_2_alg».proof.Proof.LibBiasRow

noncomputable section

namespace Cert.ReferenceIdeal.Layer

open Idealize.ShloMosaic Idealize.ShloMosaic.ValueIdx Cert.ReferenceIdeal Cert.ReferenceIdeal.Facts₀ Cert.LibMatmulNN

/-- A rectified layer of the reference, on whole arrays, is the layer function at the transposed weights and the bias
    as a row. -/
theorem relu_layer (X : FVec Ideal S320000x128 .f32) (W : FVec Ideal S128x128 .f32) (b : FVec Ideal S128 .f32) :
    maximumf (addf (Host.dotGeneral dot_S320000x128_S128x128_S320000x128_1_0_0_1_n_n none X
          (transpose S128x128 [1, 0] W transposes_S128x128_S128x128_1_0))
        (broadcastInDim S320000x128 ![0, 1] bcast_S1x128_S320000x128_0_1 (broadcastInDim S1x128 ![1] bcast_S128_S1x128_1 b)))
      (broadcastInDim S320000x128 ![] bcast_S_S320000x128 (constant (F := Ideal) S_ .f32 0x00000000#32))
    = Cert.KernelIdeal.Dense.layerRelu X
        (transpose Cert.KernelIdeal.S128x128 [1, 0] W Cert.KernelIdeal.Facts₀.transposes_S128x128_S128x128_1_0)
        (shapeCast Cert.KernelIdeal.S1x128 b Cert.KernelIdeal.Facts₀.shapeCasts_S128_S1x128) := by
  funext i
  obtain ⟨r, q, rfl⟩ : ∃ (r : Fin 320000) (q : Fin 128), i = ix2 r q := ⟨i 0, i 1, eq_ix2 i⟩
  rw [Cert.KernelIdeal.Dense.layerRelu_apply]
  show max (FloatOps.dotGeneral (dims _) none _ X (transpose S128x128 [1, 0] W _) (ix2 r q)
        + broadcastInDim S320000x128 ![0, 1] _ (broadcastInDim S1x128 ![1] _ b) (ix2 r q))
      (broadcastInDim S320000x128 ![] _ (constant (F := Ideal) S_ .f32 0x00000000#32) (ix2 r q)) = _
  rw [Cert.LibDotNN.dotGeneral_apply, BroadcastRead.row_apply, BroadcastRead.vector_row_apply,
    BiasRead.scalar_apply _ _ _ (fun a => a.elim0), BiasRead.vector_as_row_apply]
  rfl

/-- The last layer of the reference, on whole arrays: 64 output columns, no cut-off. -/
theorem last_layer (X : FVec Ideal S320000x128 .f32) (W : FVec Ideal S64x128 .f32) (b : FVec Ideal S64 .f32) :
    addf (Host.dotGeneral dot_S320000x128_S128x64_S320000x64_1_0_0_1_n_n none X
          (transpose S128x64 [1, 0] W transposes_S64x128_S128x64_1_0))
        (broadcastInDim S320000x64 ![0, 1] bcast_S1x64_S320000x64_0_1 (broadcastInDim S1x64 ![1] bcast_S64_S1x64_1 b))
    = Cert.KernelIdeal.Dense.layerLast X
        (transpose Cert.KernelIdeal.S128x64 [1, 0] W Cert.KernelIdeal.Facts₀.transposes_S64x128_S128x64_1_0)
        (shapeCast Cert.KernelIdeal.S1x64 b Cert.KernelIdeal.Facts₀.shapeCasts_S64_S1x64) := by
  funext i
  obtain ⟨r, q, rfl⟩ : ∃ (r : Fin 320000) (q : Fin 64), i = ix2 r q := ⟨i 0, i 1, eq_ix2 i⟩
  rw [Cert.KernelIdeal.Dense.layerLast_apply]
  show FloatOps.dotGeneral (dims _) none _ X (transpose S128x64 [1, 0] W _) (ix2 r q)
        + broadcastInDim S320000x64 ![0, 1] _ (broadcastInDim S1x64 ![1] _ b) (ix2 r q) = _
  rw [Cert.LibDotNN.dotGeneral_apply, BroadcastRead.row_apply, BroadcastRead.vector_row_apply,
    BiasRead.vector_as_row_apply]

end Cert.ReferenceIdeal.Layer

end
-- ==== Proof.RefValue.lean ====
/-
  The reference computes the same network.

  Stage by stage (the generated read-back of the reference names every operation's value as a function of @main's
  arguments): the operations before the first matrix product, and those between a rectifier and the next product, are
  the mixing stretch of Net.lean applied to the previous layer's value — the very same operations in the same
  order —, and a product with its bias and rectifier is the dense layer of Dense.lean (RefLayer.lean). Five layers on,
  the reference's result is the network of its arguments.
-/
import proofs.«145168_j27986006901493_2_alg».proof.Proof.Gen.ReferenceIdeal.Read
import proofs.«145168_j27986006901493_2_alg».proof.Proof.RefLayer
import proofs.«145168_j27986006901493_2_alg».proof.Proof.Net

set_option maxRecDepth 16384

noncomputable section

namespace Cert.ReferenceIdeal.RefValue

open Idealize.ShloMosaic Cert.ReferenceIdeal Cert.ReferenceIdeal.Read Cert.KernelIdeal.Net

variable (x0 : Edges) (x1 x2 : Ends) (x3 : Weights) (x4 : Bias) (x5 : Weights) (x6 : Bias) (x7 : Weights) (x8 : Bias)
  (x9 : Weights) (x10 : Bias) (x11 : FVec Ideal Cert.KernelIdeal.S64x128 .f32)
  (x12 : FVec Ideal Cert.KernelIdeal.S64 .f32)

/-- The in-degrees. -/
theorem degree_eq : val_main_v3 (F := Ideal) x2 = degree x2 := rfl

/-- Before the first product: the argument edge array mixed once. -/
theorem mix1 : val_main_v36 (F := Ideal) x0 x1 x2 = mix (degree x2) x1 x2 x0 := rfl

/-- The first layer. -/
theorem layer1 : val_main_v42 (F := Ideal) x0 x1 x2 x3 x4 = layer (degree x2) x1 x2 x0 x3 x4 := by
  unfold val_main_v42 val_main_v41 val_main_v38 val_main_v37 val_main_v40 val_main_v39 val_main_call0_v0 val_main_call0_cst
  refine (Layer.relu_layer _ _ _).trans ?_
  rw [mix1]
  rfl

/-- Between the first rectifier and the second product: the first layer mixed once. -/
theorem mix2 : val_main_v75 (F := Ideal) x0 x1 x2 x3 x4 = mix (degree x2) x1 x2 (val_main_v42 (F := Ideal) x0 x1 x2 x3 x4) := rfl

/-- The second layer. -/
theorem layer2 : val_main_v81 (F := Ideal) x0 x1 x2 x3 x4 x5 x6 = layer (degree x2) x1 x2 (layer (degree x2) x1 x2 x0 x3 x4) x5 x6 := by
  unfold val_main_v81 val_main_v80 val_main_v77 val_main_v76 val_main_v79 val_main_v78 val_main_call1_v0 val_main_call1_cst
  refine (Layer.relu_layer _ _ _).trans ?_
  rw [mix2, layer1]
  rfl

theorem mix3 : val_main_v114 (F := Ideal) x0 x1 x2 x3 x4 x5 x6 = mix (degree x2) x1 x2 (val_main_v81 (F := Ideal) x0 x1 x2 x3 x4 x5 x6) := rfl

/-- The third layer. -/
theorem layer3 : val_main_v120 (F := Ideal) x0 x1 x2 x3 x4 x5 x6 x7 x8
    = layer (degree x2) x1 x2 (layer (degree x2) x1 x2 (layer (degree x2) x1 x2 x0 x3 x4) x5 x6) x7 x8 := by
  unfold val_main_v120 val_main_v119 val_main_v116 val_main_v115 val_main_v118 val_main_v117 val_main_call2_v0 val_main_call2_cst
  refine (Layer.relu_layer _ _ _).trans ?_
  rw [mix3, layer2]
  rfl

theorem mix4 : val_main_v153 (F := Ideal) x0 x1 x2 x3 x4 x5 x6 x7 x8 = mix (degree x2) x1 x2 (val_main_v120 (F := Ideal) x0 x1 x2 x3 x4 x5 x6 x7 x8) := rfl

/-- The fourth layer. -/
theorem layer4 : val_main_v159 (F := Ideal) x0 x1 x2 x3 x4 x5 x6 x7 x8 x9 x10
    = layer (degree x2) x1 x2 (layer (degree x2) x1 x2 (layer (degree x2) x1 x2 (layer (degree x2) x1 x2 x0 x3 x4) x5 x6) x7 x8) x9 x10 := by
  unfold val_main_v159 val_main_v158 val_main_v155 val_main_v154 val_main_v157 val_main_v156 val_main_call3_v0 val_main_call3_cst
  refine (Layer.relu_layer _ _ _).trans ?_
  rw [mix4, layer3]
  rfl

theorem mix5 : val_main_v192 (F := Ideal) x0 x1 x2 x3 x4 x5 x6 x7 x8 x9 x10 = mix (degree x2) x1 x2 (val_main_v159 (F := Ideal) x0 x1 x2 x3 x4 x5 x6 x7 x8 x9 x10) := rfl

/-- The reference's result is the network of its arguments. -/
theorem result_eq : val_main_v197 (F := Ideal) x0 x1 x2 x3 x4 x5 x6 x7 x8 x9 x10 x11 x12 = net x0 x1 x2 x3 x4 x5 x6 x7 x8 x9 x10 x11 x12 := by
  unfold val_main_v197 val_main_v194 val_main_v193 val_main_v196 val_main_v195
  refine (Layer.last_layer _ _ _).trans ?_
  rw [mix5, layer4]
  rfl

end Cert.ReferenceIdeal.RefValue

end
-- ==== Proof.lean ====
/-
  The certificate: a five-layer graph network whose dense layers run as tiled kernels, against its plain reference.

  Both programs interleave the same message-passing stretches of host operations (sum edge rows into target nodes,
  divide by the in-degree, read and re-sum over the source nodes, average the two endpoint rows per edge) with five
  dense layers h ↦ max (h · Wᵀ + b, 0), the last without the cut-off. The kernel runs each dense layer as a grid of 40
  row blocks against the weights transposed once on the host; the reference as one matrix product. On the extended
  reals a change of float format is the identity and both products are the same finite sum, so each layer is one
  function of its three arrays on both sides (Dense.lean; RegionK.lean for the kernel's blocks, RefLayer.lean for the
  reference), the stretches between are literally the same operations (Net.lean), and both results are the network of
  the arguments (Walk.lean for the kernel, RefValue.lean for the reference). No law that needs finite entries is used:
  the precondition is never opened.

  The three frames: the kernel's two are the generated frame runs; the reference's is its generated run with the
  result dropped. The idealization rewrote nothing, so there is nothing to preserve.
-/
import proofs.«145168_j27986006901493_2_alg».proof.Defs
import proofs.«145168_j27986006901493_2_alg».proof.Proof.Gen.Kernel
import proofs.«145168_j27986006901493_2_alg».proof.Proof.Gen.Kernel.Skeleton
import proofs.«145168_j27986006901493_2_alg».proof.Proof.Gen.Kernel.Launch
import proofs.«145168_j27986006901493_2_alg».proof.Proof.Gen.Kernel.Points
import proofs.«145168_j27986006901493_2_alg».proof.Proof.Gen.Kernel.Frame
import proofs.«145168_j27986006901493_2_alg».proof.Proof.Gen.KernelIdeal
import proofs.«145168_j27986006901493_2_alg».proof.Proof.Gen.KernelIdeal.Skeleton
import proofs.«145168_j27986006901493_2_alg».proof.Proof.Gen.KernelIdeal.Launch
import proofs.«145168_j27986006901493_2_alg».proof.Proof.Gen.KernelIdeal.Points
import proofs.«145168_j27986006901493_2_alg».proof.Proof.Gen.KernelIdeal.Frame
import proofs.«145168_j27986006901493_2_alg».proof.Proof.Gen.ReferenceIdeal
import proofs.«145168_j27986006901493_2_alg».proof.Proof.Gen.ReferenceIdeal.Run
import proofs.«145168_j27986006901493_2_alg».proof.Proof.Gen.ReferenceIdeal.Read
import proofs.«145168_j27986006901493_2_alg».proof.Proof.Gen.Pre_finite_inputs
import proofs.«145168_j27986006901493_2_alg».proof.Proof.Walk
import proofs.«145168_j27986006901493_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the network of those arguments in their
    result arrays. -/
theorem algebraic : Cert.algebraic_KernelIdeal_ReferenceIdeal := by
  intro m ρ m' ρ' _ hagree
  refine ⟨_, Cert.KernelIdeal.Walk.run_net m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v197_eq, Cert.ReferenceIdeal.RefValue.result_eq]
  obtain ⟨e0, e1, e2, e3, e4, e5, e6, e7, e8, e9, e10, e11, e12⟩ := hagree c
  rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
